-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x128x3 : Shape := ⟨4, ![16, 128, 128, 3]⟩
abbrev S3x3x3x16 : Shape := ⟨4, ![3, 3, 3, 16]⟩
abbrev S_ : Shape := ⟨0, ![]⟩

class Facts : Prop where
  bcast_S_S16x128x128x3 : S_.BroadcastsInDim S16x128x128x3 (![] : Fin 0 → Fin S16x128x128x3.rank)
  reducesTo_S16x128x128x3_S_d0_1_2_3 : S16x128x128x3.ReducesTo [0, 1, 2, 3] S_
  h_S_ : 0 < S_.numel
  bcast_S_S3x3x3x16 : S_.BroadcastsInDim S3x3x3x16 (![] : Fin 0 → Fin S3x3x3x16.rank)
  reducesTo_S3x3x3x16_S_d0_1_2_3 : S3x3x3x16.ReducesTo [0, 1, 2, 3] S_

variable [Facts]

def fn {F : FTy → Type} [FloatOps F] (main_arg0 : FVec F S16x128x128x3 .f32) (main_arg1 : FVec F S3x3x3x16 .f32) : IVec S_ 1 :=
  let main_v0 : FVec F S16x128x128x3 .f32 := Host.absf main_arg0
  let main_cst : FVec F S_ .f32 := constant S_ .f32 0x7F800000#32
  let main_v1 : FVec F S16x128x128x3 .f32 := broadcastInDim S16x128x128x3 ![] bcast_S_S16x128x128x3 main_cst
  let main_v2 : IVec S16x128x128x3 1 := cmpf .olt main_v0 main_v1
  let main_c : IVec S_ 1 := constantI S_ 1 1#1
  let main_v3 : IVec S_ 1 := (fun x v => Host.reduce IntOp.andi x v reducesTo_S16x128x128x3_S_d0_1_2_3 h_S_) main_v2 main_c
  let main_v4 : FVec F S3x3x3x16 .f32 := Host.absf main_arg1
  let main_cst_0 : FVec F S_ .f32 := constant S_ .f32 0x7F800000#32
  let main_v5 : FVec F S3x3x3x16 .f32 := broadcastInDim S3x3x3x16 ![] bcast_S_S3x3x3x16 main_cst_0
  let main_v6 : IVec S3x3x3x16 1 := cmpf .olt main_v4 main_v5
  let main_c_1 : IVec S_ 1 := constantI S_ 1 1#1
  let main_v7 : IVec S_ 1 := (fun x v => Host.reduce IntOp.andi x v reducesTo_S3x3x3x16_S_d0_1_2_3 h_S_) main_v6 main_c_1
  let main_v8 : IVec S_ 1 := andi main_v3 main_v7
  main_v8
-- ==== Kernel.lean ====
abbrev S16x128x128x3 : Shape := ⟨4, ![16, 128, 128, 3]⟩
abbrev S3x3x3x16 : Shape := ⟨4, ![3, 3, 3, 16]⟩
abbrev S16x128x3x128 : Shape := ⟨4, ![16, 128, 3, 128]⟩
abbrev S16x126x126 : Shape := ⟨3, ![16, 126, 126]⟩
abbrev S1x128x3x128 : Shape := ⟨4, ![1, 128, 3, 128]⟩
abbrev S1x126x126 : Shape := ⟨3, ![1, 126, 126]⟩
abbrev S128x3x128 : Shape := ⟨3, ![128, 3, 128]⟩
abbrev S126x1x126 : Shape := ⟨3, ![126, 1, 126]⟩
abbrev S126x126 : Shape := ⟨2, ![126, 126]⟩
abbrev S1x1x1x16 : Shape := ⟨4, ![1, 1, 1, 16]⟩
abbrev S16 : Shape := ⟨1, ![16]⟩
abbrev S16x1x1 : Shape := ⟨3, ![16, 1, 1]⟩
abbrev S16x126x126x1 : Shape := ⟨4, ![16, 126, 126, 1]⟩

abbrev nBuf : Space → Nat
  | .hbm => 5
  | .vmem => 6
  | .smem => 0
  | _ => 0

abbrev bufTy : (tb : Table) → Fin (tcTables nBuf tb) → BufTy
  | .hbm, ⟨0, _⟩ => ⟨S16x128x128x3, .f32⟩
  | .hbm, ⟨1, _⟩ => ⟨S3x3x3x16, .f32⟩
  | .hbm, ⟨2, _⟩ => ⟨S16x128x3x128, .f32⟩
  | .hbm, ⟨3, _⟩ => ⟨S16x126x126, .f32⟩
  | .hbm, ⟨4, _⟩ => ⟨S16x126x126x1, .f32⟩
  | .local _ .vmem, ⟨0, _⟩ => ⟨S1x128x3x128, .f32⟩
  | .local _ .vmem, ⟨1, _⟩ => ⟨S1x128x3x128, .f32⟩
  | .local _ .vmem, ⟨2, _⟩ => ⟨S3x3x3x16, .f32⟩
  | .local _ .vmem, ⟨3, _⟩ => ⟨S1x126x126, .f32⟩
  | .local _ .vmem, ⟨4, _⟩ => ⟨S1x126x126, .f32⟩
  | .local _ .vmem, ⟨5, _⟩ => ⟨S16x126x126, .f32⟩
  | _, _ => ⟨S16x128x128x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x3x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x126x126 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S16x128x128x3_S16x128x3x128_0_1_3_2 : S16x128x128x3.Transposes [0, 1, 3, 2] S16x128x3x128
  inb_S1x128x3x128_S1x128x3x128_0_0_0_0 : ∀ a, (![0, 0, 0, 0] : Fin 4 → Nat) a + S1x128x3x128.size a ≤ S1x128x3x128.size a
  h_S1x128x3x128 : 0 < S1x128x3x128.numel
  shapeCasts_S1x128x3x128_S128x3x128 : S1x128x3x128.ShapeCasts S128x3x128
  inb_S3x3x3x16_S3x3x3x16_0_0_0_0 : ∀ a, (![0, 0, 0, 0] : Fin 4 → Nat) a + S3x3x3x16.size a ≤ S3x3x3x16.size a
  h_S3x3x3x16 : 0 < S3x3x3x16.numel
  slices_S128x3x128_o0_0_0_S126x1x126 : S128x3x128.Slices ![0, 0, 0] S126x1x126
  shapeCasts_S126x1x126_S126x126 : S126x1x126.ShapeCasts S126x126
  shapeCasts_S126x126_S1x126x126 : S126x126.ShapeCasts S1x126x126
  slices_S3x3x3x16_o0_0_0_0_S1x1x1x16 : S3x3x3x16.Slices ![0, 0, 0, 0] S1x1x1x16
  shapeCasts_S1x1x1x16_S16 : S1x1x1x16.ShapeCasts S16
  shapeCasts_S16_S16x1x1 : S16.ShapeCasts S16x1x1
  broadcasts_S1x126x126_S16x126x126 : S1x126x126.Broadcasts S16x126x126
  broadcasts_S16x1x1_S16x126x126 : S16x1x1.Broadcasts S16x126x126
  inb_S16x126x126_S16x126x126_0_0_0 : ∀ a, (![0, 0, 0] : Fin 3 → Nat) a + S16x126x126.size a ≤ S16x126x126.size a
  h_S16x126x126 : 0 < S16x126x126.numel
  shapeCasts_S16x126x126_S16x126x126 : S16x126x126.ShapeCasts S16x126x126
  slices_S128x3x128_o0_1_0_S126x1x126 : S128x3x128.Slices ![0, 1, 0] S126x1x126
  slices_S3x3x3x16_o0_0_1_0_S1x1x1x16 : S3x3x3x16.Slices ![0, 0, 1, 0] S1x1x1x16
  slices_S128x3x128_o0_2_0_S126x1x126 : S128x3x128.Slices ![0, 2, 0] S126x1x126
  slices_S3x3x3x16_o0_0_2_0_S1x1x1x16 : S3x3x3x16.Slices ![0, 0, 2, 0] S1x1x1x16
  slices_S128x3x128_o0_0_1_S126x1x126 : S128x3x128.Slices ![0, 0, 1] S126x1x126
  slices_S3x3x3x16_o0_1_0_0_S1x1x1x16 : S3x3x3x16.Slices ![0, 1, 0, 0] S1x1x1x16
  slices_S128x3x128_o0_1_1_S126x1x126 : S128x3x128.Slices ![0, 1, 1] S126x1x126
  slices_S3x3x3x16_o0_1_1_0_S1x1x1x16 : S3x3x3x16.Slices ![0, 1, 1, 0] S1x1x1x16
  slices_S128x3x128_o0_2_1_S126x1x126 : S128x3x128.Slices ![0, 2, 1] S126x1x126
  slices_S3x3x3x16_o0_1_2_0_S1x1x1x16 : S3x3x3x16.Slices ![0, 1, 2, 0] S1x1x1x16
  slices_S128x3x128_o0_0_2_S126x1x126 : S128x3x128.Slices ![0, 0, 2] S126x1x126
  slices_S3x3x3x16_o0_2_0_0_S1x1x1x16 : S3x3x3x16.Slices ![0, 2, 0, 0] S1x1x1x16
  slices_S128x3x128_o0_1_2_S126x1x126 : S128x3x128.Slices ![0, 1, 2] S126x1x126
  slices_S3x3x3x16_o0_2_1_0_S1x1x1x16 : S3x3x3x16.Slices ![0, 2, 1, 0] S1x1x1x16
  slices_S128x3x128_o0_2_2_S126x1x126 : S128x3x128.Slices ![0, 2, 2] S126x1x126
  slices_S3x3x3x16_o0_2_2_0_S1x1x1x16 : S3x3x3x16.Slices ![0, 2, 2, 0] S1x1x1x16
  slices_S128x3x128_o1_0_0_S126x1x126 : S128x3x128.Slices ![1, 0, 0] S126x1x126
  slices_S3x3x3x16_o1_0_0_0_S1x1x1x16 : S3x3x3x16.Slices ![1, 0, 0, 0] S1x1x1x16
  slices_S128x3x128_o1_1_0_S126x1x126 : S128x3x128.Slices ![1, 1, 0] S126x1x126
  slices_S3x3x3x16_o1_0_1_0_S1x1x1x16 : S3x3x3x16.Slices ![1, 0, 1, 0] S1x1x1x16
  slices_S128x3x128_o1_2_0_S126x1x126 : S128x3x128.Slices ![1, 2, 0] S126x1x126
  slices_S3x3x3x16_o1_0_2_0_S1x1x1x16 : S3x3x3x16.Slices ![1, 0, 2, 0] S1x1x1x16
  slices_S128x3x128_o1_0_1_S126x1x126 : S128x3x128.Slices ![1, 0, 1] S126x1x126
  slices_S3x3x3x16_o1_1_0_0_S1x1x1x16 : S3x3x3x16.Slices ![1, 1, 0, 0] S1x1x1x16
  slices_S128x3x128_o1_1_1_S126x1x126 : S128x3x128.Slices ![1, 1, 1] S126x1x126
  slices_S3x3x3x16_o1_1_1_0_S1x1x1x16 : S3x3x3x16.Slices ![1, 1, 1, 0] S1x1x1x16
  slices_S128x3x128_o1_2_1_S126x1x126 : S128x3x128.Slices ![1, 2, 1] S126x1x126
  slices_S3x3x3x16_o1_1_2_0_S1x1x1x16 : S3x3x3x16.Slices ![1, 1, 2, 0] S1x1x1x16
  slices_S128x3x128_o1_0_2_S126x1x126 : S128x3x128.Slices ![1, 0, 2] S126x1x126
  slices_S3x3x3x16_o1_2_0_0_S1x1x1x16 : S3x3x3x16.Slices ![1, 2, 0, 0] S1x1x1x16
  slices_S128x3x128_o1_1_2_S126x1x126 : S128x3x128.Slices ![1, 1, 2] S126x1x126
  slices_S3x3x3x16_o1_2_1_0_S1x1x1x16 : S3x3x3x16.Slices ![1, 2, 1, 0] S1x1x1x16
  slices_S128x3x128_o1_2_2_S126x1x126 : S128x3x128.Slices ![1, 2, 2] S126x1x126
  slices_S3x3x3x16_o1_2_2_0_S1x1x1x16 : S3x3x3x16.Slices ![1, 2, 2, 0] S1x1x1x16
  slices_S128x3x128_o2_0_0_S126x1x126 : S128x3x128.Slices ![2, 0, 0] S126x1x126
  slices_S3x3x3x16_o2_0_0_0_S1x1x1x16 : S3x3x3x16.Slices ![2, 0, 0, 0] S1x1x1x16
  slices_S128x3x128_o2_1_0_S126x1x126 : S128x3x128.Slices ![2, 1, 0] S126x1x126
  slices_S3x3x3x16_o2_0_1_0_S1x1x1x16 : S3x3x3x16.Slices ![2, 0, 1, 0] S1x1x1x16
  slices_S128x3x128_o2_2_0_S126x1x126 : S128x3x128.Slices ![2, 2, 0] S126x1x126
  slices_S3x3x3x16_o2_0_2_0_S1x1x1x16 : S3x3x3x16.Slices ![2, 0, 2, 0] S1x1x1x16
  slices_S128x3x128_o2_0_1_S126x1x126 : S128x3x128.Slices ![2, 0, 1] S126x1x126
  slices_S3x3x3x16_o2_1_0_0_S1x1x1x16 : S3x3x3x16.Slices ![2, 1, 0, 0] S1x1x1x16
  slices_S128x3x128_o2_1_1_S126x1x126 : S128x3x128.Slices ![2, 1, 1] S126x1x126
  slices_S3x3x3x16_o2_1_1_0_S1x1x1x16 : S3x3x3x16.Slices ![2, 1, 1, 0] S1x1x1x16
  slices_S128x3x128_o2_2_1_S126x1x126 : S128x3x128.Slices ![2, 2, 1] S126x1x126
  slices_S3x3x3x16_o2_1_2_0_S1x1x1x16 : S3x3x3x16.Slices ![2, 1, 2, 0] S1x1x1x16
  slices_S128x3x128_o2_0_2_S126x1x126 : S128x3x128.Slices ![2, 0, 2] S126x1x126
  slices_S3x3x3x16_o2_2_0_0_S1x1x1x16 : S3x3x3x16.Slices ![2, 2, 0, 0] S1x1x1x16
  slices_S128x3x128_o2_1_2_S126x1x126 : S128x3x128.Slices ![2, 1, 2] S126x1x126
  slices_S3x3x3x16_o2_2_1_0_S1x1x1x16 : S3x3x3x16.Slices ![2, 2, 1, 0] S1x1x1x16
  slices_S128x3x128_o2_2_2_S126x1x126 : S128x3x128.Slices ![2, 2, 2] S126x1x126
  slices_S3x3x3x16_o2_2_2_0_S1x1x1x16 : S3x3x3x16.Slices ![2, 2, 2, 0] S1x1x1x16
  reduces_S16x126x126_S126x126 : S16x126x126.Reduces [0] S126x126
  inb_S1x126x126_S1x126x126_0_0_0 : ∀ a, (![0, 0, 0] : Fin 3 → Nat) a + S1x126x126.size a ≤ S1x126x126.size a
  h_S1x126x126 : 0 < S1x126x126.numel
  shapeCasts_S1x126x126_S126x126 : S1x126x126.ShapeCasts S126x126
  bcast_S16x126x126_S16x126x126x1_0_1_2 : S16x126x126.BroadcastsInDim S16x126x126x1 (![0, 1, 2] : Fin 3 → Fin S16x126x126x1.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x3x128.size a ≤ S16x128x3x128.size a
  hwx0_0 : ∀ i : grid0.Coords, EltTy.bits .f32 = 32 ∨ (Rect.block (s := S16x128x3x128) S1x128x3x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x3x16.size a ≤ S3x3x3x16.size a
  hwx0_1 : ∀ i : grid0.Coords, EltTy.bits .f32 = 32 ∨ (Rect.block (s := S3x3x3x16) S3x3x3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x126x126.size a ≤ S16x126x126.size a
  hwx0_2 : ∀ i : grid0.Coords, EltTy.bits .f32 = 32 ∨ (Rect.block (s := S16x126x126) S1x126x126.size (cc0_transform_2 i) (hinb0_2 i)).WholeWords (EltTy.packing .f32)

variable [Facts₀]

abbrev win0_0 : Pipeline.Window sig grid0 :=
  Pipeline.Window.ofSpec (Memref.whole main_v0) S1x128x3x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x3x3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x126x126.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x128x3 : Shape := ⟨4, ![16, 128, 128, 3]⟩
abbrev S3x3x3x16 : Shape := ⟨4, ![3, 3, 3, 16]⟩
abbrev S16x126x126x3 : Shape := ⟨4, ![16, 126, 126, 3]⟩
abbrev S16x126x126x3x1 : Shape := ⟨5, ![16, 126, 126, 3, 1]⟩
abbrev S1x1x3x16 : Shape := ⟨4, ![1, 1, 3, 16]⟩
abbrev S3x16 : Shape := ⟨2, ![3, 16]⟩
abbrev S1x1x1x3x16 : Shape := ⟨5, ![1, 1, 1, 3, 16]⟩
abbrev S16x126x126x3x16 : Shape := ⟨5, ![16, 126, 126, 3, 16]⟩
abbrev S_ : Shape := ⟨0, ![]⟩
abbrev S16x126x126x16 : Shape := ⟨4, ![16, 126, 126, 16]⟩
abbrev S16x126x126 : Shape := ⟨3, ![16, 126, 126]⟩
abbrev S16x126x126x1 : Shape := ⟨4, ![16, 126, 126, 1]⟩

abbrev nBuf : Space → Nat
  | .hbm => 103
  | .vmem => 0
  | .smem => 0
  | _ => 0

abbrev bufTy : (tb : Table) → Fin (tcTables nBuf tb) → BufTy
  | .hbm, ⟨0, _⟩ => ⟨S16x128x128x3, .f32⟩
  | .hbm, ⟨1, _⟩ => ⟨S3x3x3x16, .f32⟩
  | .hbm, ⟨2, _⟩ => ⟨S16x126x126x3, .f32⟩
  | .hbm, ⟨3, _⟩ => ⟨S16x126x126x3x1, .f32⟩
  | .hbm, ⟨4, _⟩ => ⟨S1x1x3x16, .f32⟩
  | .hbm, ⟨5, _⟩ => ⟨S3x16, .f32⟩
  | .hbm, ⟨6, _⟩ => ⟨S1x1x1x3x16, .f32⟩
  | .hbm, ⟨7, _⟩ => ⟨S16x126x126x3x16, .f32⟩
  | .hbm, ⟨8, _⟩ => ⟨S16x126x126x3x16, .f32⟩
  | .hbm, ⟨9, _⟩ => ⟨S16x126x126x3x16, .f32⟩
  | .hbm, ⟨10, _⟩ => ⟨S_, .f32⟩
  | .hbm, ⟨11, _⟩ => ⟨S16x126x126x16, .f32⟩
  | .hbm, ⟨12, _⟩ => ⟨S16x126x126x3, .f32⟩
  | .hbm, ⟨13, _⟩ => ⟨S16x126x126x3x1, .f32⟩
  | .hbm, ⟨14, _⟩ => ⟨S1x1x3x16, .f32⟩
  | .hbm, ⟨15, _⟩ => ⟨S3x16, .f32⟩
  | .hbm, ⟨16, _⟩ => ⟨S1x1x1x3x16, .f32⟩
  | .hbm, ⟨17, _⟩ => ⟨S16x126x126x3x16, .f32⟩
  | .hbm, ⟨18, _⟩ => ⟨S16x126x126x3x16, .f32⟩
  | .hbm, ⟨19, _⟩ => ⟨S16x126x126x3x16, .f32⟩
  | .hbm, ⟨20, _⟩ => ⟨S_, .f32⟩
  | .hbm, ⟨21, _⟩ => ⟨S16x126x126x16, .f32⟩
  | .hbm, ⟨22, _⟩ => ⟨S16x126x126x16, .f32⟩
  | .hbm, ⟨23, _⟩ => ⟨S16x126x126x3, .f32⟩
  | .hbm, ⟨24, _⟩ => ⟨S16x126x126x3x1, .f32⟩
  | .hbm, ⟨25, _⟩ => ⟨S1x1x3x16, .f32⟩
  | .hbm, ⟨26, _⟩ => ⟨S3x16, .f32⟩
  | .hbm, ⟨27, _⟩ => ⟨S1x1x1x3x16, .f32⟩
  | .hbm, ⟨28, _⟩ => ⟨S16x126x126x3x16, .f32⟩
  | .hbm, ⟨29, _⟩ => ⟨S16x126x126x3x16, .f32⟩
  | .hbm, ⟨30, _⟩ => ⟨S16x126x126x3x16, .f32⟩
  | .hbm, ⟨31, _⟩ => ⟨S_, .f32⟩
  | .hbm, ⟨32, _⟩ => ⟨S16x126x126x16, .f32⟩
  | .hbm, ⟨33, _⟩ => ⟨S16x126x126x16, .f32⟩
  | .hbm, ⟨34, _⟩ => ⟨S16x126x126x3, .f32⟩
  | .hbm, ⟨35, _⟩ => ⟨S16x126x126x3x1, .f32⟩
  | .hbm, ⟨36, _⟩ => ⟨S1x1x3x16, .f32⟩
  | .hbm, ⟨37, _⟩ => ⟨S3x16, .f32⟩
  | .hbm, ⟨38, _⟩ => ⟨S1x1x1x3x16, .f32⟩
  | .hbm, ⟨39, _⟩ => ⟨S16x126x126x3x16, .f32⟩
  | .hbm, ⟨40, _⟩ => ⟨S16x126x126x3x16, .f32⟩
  | .hbm, ⟨41, _⟩ => ⟨S16x126x126x3x16, .f32⟩
  | .hbm, ⟨42, _⟩ => ⟨S_, .f32⟩
  | .hbm, ⟨43, _⟩ => ⟨S16x126x126x16, .f32⟩
  | .hbm, ⟨44, _⟩ => ⟨S16x126x126x16, .f32⟩
  | .hbm, ⟨45, _⟩ => ⟨S16x126x126x3, .f32⟩
  | .hbm, ⟨46, _⟩ => ⟨S16x126x126x3x1, .f32⟩
  | .hbm, ⟨47, _⟩ => ⟨S1x1x3x16, .f32⟩
  | .hbm, ⟨48, _⟩ => ⟨S3x16, .f32⟩
  | .hbm, ⟨49, _⟩ => ⟨S1x1x1x3x16, .f32⟩
  | .hbm, ⟨50, _⟩ => ⟨S16x126x126x3x16, .f32⟩
  | .hbm, ⟨51, _⟩ => ⟨S16x126x126x3x16, .f32⟩
  | .hbm, ⟨52, _⟩ => ⟨S16x126x126x3x16, .f32⟩
  | .hbm, ⟨53, _⟩ => ⟨S_, .f32⟩
  | .hbm, ⟨54, _⟩ => ⟨S16x126x126x16, .f32⟩
  | .hbm, ⟨55, _⟩ => ⟨S16x126x126x16, .f32⟩
  | .hbm, ⟨56, _⟩ => ⟨S16x126x126x3, .f32⟩
  | .hbm, ⟨57, _⟩ => ⟨S16x126x126x3x1, .f32⟩
  | .hbm, ⟨58, _⟩ => ⟨S1x1x3x16, .f32⟩
  | .hbm, ⟨59, _⟩ => ⟨S3x16, .f32⟩
  | .hbm, ⟨60, _⟩ => ⟨S1x1x1x3x16, .f32⟩
  | .hbm, ⟨61, _⟩ => ⟨S16x126x126x3x16, .f32⟩
  | .hbm, ⟨62, _⟩ => ⟨S16x126x126x3x16, .f32⟩
  | .hbm, ⟨63, _⟩ => ⟨S16x126x126x3x16, .f32⟩
  | .hbm, ⟨64, _⟩ => ⟨S_, .f32⟩
  | .hbm, ⟨65, _⟩ => ⟨S16x126x126x16, .f32⟩
  | .hbm, ⟨66, _⟩ => ⟨S16x126x126x16, .f32⟩
  | .hbm, ⟨67, _⟩ => ⟨S16x126x126x3, .f32⟩
  | .hbm, ⟨68, _⟩ => ⟨S16x126x126x3x1, .f32⟩
  | .hbm, ⟨69, _⟩ => ⟨S1x1x3x16, .f32⟩
  | .hbm, ⟨70, _⟩ => ⟨S3x16, .f32⟩
  | .hbm, ⟨71, _⟩ => ⟨S1x1x1x3x16, .f32⟩
  | .hbm, ⟨72, _⟩ => ⟨S16x126x126x3x16, .f32⟩
  | .hbm, ⟨73, _⟩ => ⟨S16x126x126x3x16, .f32⟩
  | .hbm, ⟨74, _⟩ => ⟨S16x126x126x3x16, .f32⟩
  | .hbm, ⟨75, _⟩ => ⟨S_, .f32⟩
  | .hbm, ⟨76, _⟩ => ⟨S16x126x126x16, .f32⟩
  | .hbm, ⟨77, _⟩ => ⟨S16x126x126x16, .f32⟩
  | .hbm, ⟨78, _⟩ => ⟨S16x126x126x3, .f32⟩
  | .hbm, ⟨79, _⟩ => ⟨S16x126x126x3x1, .f32⟩
  | .hbm, ⟨80, _⟩ => ⟨S1x1x3x16, .f32⟩
  | .hbm, ⟨81, _⟩ => ⟨S3x16, .f32⟩
  | .hbm, ⟨82, _⟩ => ⟨S1x1x1x3x16, .f32⟩
  | .hbm, ⟨83, _⟩ => ⟨S16x126x126x3x16, .f32⟩
  | .hbm, ⟨84, _⟩ => ⟨S16x126x126x3x16, .f32⟩
  | .hbm, ⟨85, _⟩ => ⟨S16x126x126x3x16, .f32⟩
  | .hbm, ⟨86, _⟩ => ⟨S_, .f32⟩
  | .hbm, ⟨87, _⟩ => ⟨S16x126x126x16, .f32⟩
  | .hbm, ⟨88, _⟩ => ⟨S16x126x126x16, .f32⟩
  | .hbm, ⟨89, _⟩ => ⟨S16x126x126x3, .f32⟩
  | .hbm, ⟨90, _⟩ => ⟨S16x126x126x3x1, .f32⟩
  | .hbm, ⟨91, _⟩ => ⟨S1x1x3x16, .f32⟩
  | .hbm, ⟨92, _⟩ => ⟨S3x16, .f32⟩
  | .hbm, ⟨93, _⟩ => ⟨S1x1x1x3x16, .f32⟩
  | .hbm, ⟨94, _⟩ => ⟨S16x126x126x3x16, .f32⟩
  | .hbm, ⟨95, _⟩ => ⟨S16x126x126x3x16, .f32⟩
  | .hbm, ⟨96, _⟩ => ⟨S16x126x126x3x16, .f32⟩
  | .hbm, ⟨97, _⟩ => ⟨S_, .f32⟩
  | .hbm, ⟨98, _⟩ => ⟨S16x126x126x16, .f32⟩
  | .hbm, ⟨99, _⟩ => ⟨S16x126x126x16, .f32⟩
  | .hbm, ⟨100, _⟩ => ⟨S_, .f32⟩
  | .hbm, ⟨101, _⟩ => ⟨S16x126x126, .f32⟩
  | .hbm, ⟨102, _⟩ => ⟨S16x126x126x1, .f32⟩
  | _, _ => ⟨S16x128x128x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_1 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_2 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_cst_3 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_cst_4 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_cst_5 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_cst_6 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_7 : Ref sig .tc := ⟨.hbm, 97, rfl⟩
abbrev main_v87 : Ref sig .tc := ⟨.hbm, 98, rfl⟩
abbrev main_v88 : Ref sig .tc := ⟨.hbm, 99, rfl⟩
abbrev main_cst_8 : Ref sig .tc := ⟨.hbm, 100, rfl⟩
abbrev main_v89 : Ref sig .tc := ⟨.hbm, 101, rfl⟩
abbrev main_v90 : Ref sig .tc := ⟨.hbm, 102, rfl⟩

abbrev nD : Nat := 1
abbrev τ : Topo := Topo.v7x

variable {F : FTy → Type} [FloatOps F]

class Facts₀ : Prop where
  slices_S16x128x128x3_S16x126x126x3_0_0_0_0 : S16x128x128x3.Slices ![0, 0, 0, 0] S16x126x126x3
  bcast_S16x126x126x3_S16x126x126x3x1_0_1_2_3 : S16x126x126x3.BroadcastsInDim S16x126x126x3x1 (![0, 1, 2, 3] : Fin 4 → Fin S16x126x126x3x1.rank)
  slices_S3x3x3x16_S1x1x3x16_0_0_0_0 : S3x3x3x16.Slices ![0, 0, 0, 0] S1x1x3x16
  shapeCasts_S1x1x3x16_S3x16 : S1x1x3x16.ShapeCasts S3x16
  bcast_S3x16_S1x1x1x3x16_3_4 : S3x16.BroadcastsInDim S1x1x1x3x16 (![3, 4] : Fin 2 → Fin S1x1x1x3x16.rank)
  bcast_S16x126x126x3x1_S16x126x126x3x16_0_1_2_3_4 : S16x126x126x3x1.BroadcastsInDim S16x126x126x3x16 (![0, 1, 2, 3, 4] : Fin 5 → Fin S16x126x126x3x16.rank)
  bcast_S1x1x1x3x16_S16x126x126x3x16_0_1_2_3_4 : S1x1x1x3x16.BroadcastsInDim S16x126x126x3x16 (![0, 1, 2, 3, 4] : Fin 5 → Fin S16x126x126x3x16.rank)
  reducesTo_S16x126x126x3x16_S16x126x126x16_d3 : S16x126x126x3x16.ReducesTo [3] S16x126x126x16
  h_S_ : 0 < S_.numel
  slices_S16x128x128x3_S16x126x126x3_0_0_1_0 : S16x128x128x3.Slices ![0, 0, 1, 0] S16x126x126x3
  slices_S3x3x3x16_S1x1x3x16_0_1_0_0 : S3x3x3x16.Slices ![0, 1, 0, 0] S1x1x3x16
  slices_S16x128x128x3_S16x126x126x3_0_0_2_0 : S16x128x128x3.Slices ![0, 0, 2, 0] S16x126x126x3
  slices_S3x3x3x16_S1x1x3x16_0_2_0_0 : S3x3x3x16.Slices ![0, 2, 0, 0] S1x1x3x16
  slices_S16x128x128x3_S16x126x126x3_0_1_0_0 : S16x128x128x3.Slices ![0, 1, 0, 0] S16x126x126x3
  slices_S3x3x3x16_S1x1x3x16_1_0_0_0 : S3x3x3x16.Slices ![1, 0, 0, 0] S1x1x3x16
  slices_S16x128x128x3_S16x126x126x3_0_1_1_0 : S16x128x128x3.Slices ![0, 1, 1, 0] S16x126x126x3
  slices_S3x3x3x16_S1x1x3x16_1_1_0_0 : S3x3x3x16.Slices ![1, 1, 0, 0] S1x1x3x16
  slices_S16x128x128x3_S16x126x126x3_0_1_2_0 : S16x128x128x3.Slices ![0, 1, 2, 0] S16x126x126x3
  slices_S3x3x3x16_S1x1x3x16_1_2_0_0 : S3x3x3x16.Slices ![1, 2, 0, 0] S1x1x3x16
  slices_S16x128x128x3_S16x126x126x3_0_2_0_0 : S16x128x128x3.Slices ![0, 2, 0, 0] S16x126x126x3
  slices_S3x3x3x16_S1x1x3x16_2_0_0_0 : S3x3x3x16.Slices ![2, 0, 0, 0] S1x1x3x16
  slices_S16x128x128x3_S16x126x126x3_0_2_1_0 : S16x128x128x3.Slices ![0, 2, 1, 0] S16x126x126x3
  slices_S3x3x3x16_S1x1x3x16_2_1_0_0 : S3x3x3x16.Slices ![2, 1, 0, 0] S1x1x3x16
  slices_S16x128x128x3_S16x126x126x3_0_2_2_0 : S16x128x128x3.Slices ![0, 2, 2, 0] S16x126x126x3
  slices_S3x3x3x16_S1x1x3x16_2_2_0_0 : S3x3x3x16.Slices ![2, 2, 0, 0] S1x1x3x16
  reducesTo_S16x126x126x16_S16x126x126_d3 : S16x126x126x16.ReducesTo [3] S16x126x126
  bcast_S16x126x126_S16x126x126x1_0_1_2 : S16x126x126.BroadcastsInDim S16x126x126x1 (![0, 1, 2] : Fin 3 → Fin S16x126x126x1.rank)

variable [Facts₀]

class Facts : Prop extends Facts₀ where

variable [Facts]
-- ==== Proof.LibMinTaps.lean ====
import Mathlib.Order.Lattice
import Mathlib.Order.BoundedOrder.Basic
import Mathlib.Data.Finset.Fold
import Mathlib.Data.Fintype.Basic
import Mathlib.Data.Fin.Tuple.Basic
import Mathlib.Data.List.OfFn
import Mathlib.Data.Fintype.Fin

/-!
# A minimum over 3 × 3 × 3 taps, taken two ways

Over a linear order with a greatest element, the minimum of the 27 values `d i j c` (`i j c : Fin 3`) may be
taken as ONE running minimum through the taps in lexicographic order, or tap pair by tap pair: for each `(i, j)`
the minimum over `c` started from the greatest element, the nine results then combined in a running minimum.
The two are equal: `min` is associative and the greatest element is its identity.
-/

namespace MinTaps

variable {α : Type*} [LinearOrder α]

/-- A fold of `min` over the three coordinates of `Fin 3`, from `b`. -/
theorem fold_min_fin3 (b : α) (g : Fin 3 → α) :
    (Finset.univ : Finset (Fin 3)).fold min b g = min (g 0) (min (g 1) (min (g 2) b)) := by
  unfold Finset.fold
  rw [Fin.univ_val_map, Multiset.coe_fold_r]
  simp [List.ofFn_succ]

/-- Three consecutive passes of a running minimum: the taps `(i, j, 0)`, `(i, j, 1)`, `(i, j, 2)` folded into `a`. -/
def pass3 (d : Fin 3 → Fin 3 → Fin 3 → α) (i j : Fin 3) (a : α) : α :=
  min (min (min a (d i j 0)) (d i j 1)) (d i j 2)

/-- The running minimum through all 27 taps in lexicographic order, started AT the first tap. -/
def running (d : Fin 3 → Fin 3 → Fin 3 → α) : α :=
  pass3 d 2 2 (pass3 d 2 1 (pass3 d 2 0 (pass3 d 1 2 (pass3 d 1 1 (pass3 d 1 0 (pass3 d 0 2 (pass3 d 0 1
    (min (min (d 0 0 0) (d 0 0 1)) (d 0 0 2)))))))))

variable [OrderTop α]

/-- The minimum over `c` of the taps `(i, j, c)`, started from the greatest element. -/
def overC (d : Fin 3 → Fin 3 → Fin 3 → α) (i j : Fin 3) : α :=
  (Finset.univ : Finset (Fin 3)).fold min ⊤ (d i j)

/-- The nine per-`(i, j)` minima combined in a running minimum, in lexicographic order. -/
def nested (d : Fin 3 → Fin 3 → Fin 3 → α) : α :=
  min (min (min (min (min (min (min (min (overC d 0 0) (overC d 0 1)) (overC d 0 2)) (overC d 1 0)) (overC d 1 1))
    (overC d 1 2)) (overC d 2 0)) (overC d 2 1)) (overC d 2 2)

theorem overC_eq (d : Fin 3 → Fin 3 → Fin 3 → α) (i j : Fin 3) :
    overC d i j = min (min (d i j 0) (d i j 1)) (d i j 2) := by
  unfold overC
  rw [fold_min_fin3, min_top_right, min_assoc]

theorem pass3_eq (d : Fin 3 → Fin 3 → Fin 3 → α) (i j : Fin 3) (a : α) :
    pass3 d i j a = min a (overC d i j) := by
  rw [overC_eq]; unfold pass3
  rw [min_assoc, min_assoc, ← min_assoc (d i j 0)]

/-- The two ways of taking the minimum over the 27 taps agree. -/
theorem running_eq_nested (d : Fin 3 → Fin 3 → Fin 3 → α) : running d = nested d := by
  unfold running nested
  simp only [pass3_eq, ← overC_eq]

end MinTaps
-- ==== Proof.Erosion.lean ====
import Idealize.ShloMosaic.PureOps.Ideal
import Idealize.ShloMosaic.Lib.ValueIdx
import proofs.«122516_j62861141344687_2_alg».proof.Proof.LibMinTaps

/-!
# Grey-scale erosion followed by a maximum over the filters: the specification

For an image batch `x[n, y, z, c]` (16 × 128 × 128 × 3) and structuring elements `s[i, j, c, f]` (3 × 3 × 3 × 16)
the result at `(n, h, w)` is

    max over f of  ( min over (i, j, c) of  x[n, h + i, w + j, c] − s[i, j, c, f] ),

a 126 × 126 plane per image, carried with a trailing unit axis. All values are extended reals; the maximum over
`f` is a fold from the value of the word `0xFF800000` (−∞), which both programs spell the same way and which is
therefore never evaluated.
-/

noncomputable section

namespace Erosion

open Idealize.ShloMosaic Idealize.ShloMosaic.ValueIdx

/-- The image batch and the structuring elements, as index functions. -/
abbrev Img := (⟨4, ![16, 128, 128, 3]⟩ : Shape).Idx → Ideal .f32
abbrev Elems := (⟨4, ![3, 3, 3, 16]⟩ : Shape).Idx → Ideal .f32

/-- Row `h + i` (or column `w + j`) of the image: an output coordinate shifted by a tap offset. -/
abbrev shift (h : Fin 126) (i : Fin 3) : Fin 128 := ⟨h.val + i.val, by have := h.isLt; have := i.isLt; omega⟩

/-- Tap `(i, j, c)` of filter `f` at output position `(n, h, w)`: the pixel under the tap less the element. -/
def tap (x : Img) (s : Elems) (n : Fin 16) (h w : Fin 126) (f : Fin 16) (i j c : Fin 3) : Ideal .f32 :=
  x (ix4 n (shift h i) (shift w j) c) - s (ix4 i j c f)

/-- The erosion by filter `f` at `(n, h, w)`: the minimum over the 27 taps, as one running minimum. -/
def eroded (x : Img) (s : Elems) (n : Fin 16) (h w : Fin 126) (f : Fin 16) : Ideal .f32 :=
  MinTaps.running (tap x s n h w f)

/-- The maximum over the sixteen filters at `(n, h, w)`, folded from −∞'s word. -/
def peak (x : Img) (s : Elems) (n : Fin 16) (h w : Fin 126) : Ideal .f32 :=
  (Finset.univ : Finset (Fin 16)).fold max (Ideal.ofBits .f32 0xFF800000#32) (eroded x s n h w)

/-- The result array, 16 × 126 × 126 × 1. -/
def result (x : Img) (s : Elems) : (⟨4, ![16, 126, 126, 1]⟩ : Shape).Idx → Ideal .f32 :=
  fun q => peak x s (q 0) (q 1) (q 2)

/-- The word `0x7F800000` is +∞, the identity of `min`. -/
theorem posInf : Ideal.ofBits .f32 0x7F800000#32 = (⊤ : EReal) := by
  simp [Ideal.ofBits, Ideal.ieee]

end Erosion

end
-- ==== Proof.KernelReaders.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import Idealize.ShloMosaic.Lib.Pipeline.FrameBody
import proofs.«122516_j62861141344687_2_alg».proof.Proof.Erosion

/-!
# The kernel body's vector operations, read at an index

One image is held as a stack of planes, 128 rows × 3 channels × 128 columns. For tap `(i, j, c)` the body cuts
the 126 × 126 window of channel `c` at offset `(i, j)`, lays it over the sixteen filters, subtracts the tap's
sixteen structuring elements laid over the window, and folds the difference into a 16 × 126 × 126 running
minimum; at the end it takes the maximum over the filter axis. Each of those, read at one index, is an
arithmetic fact about coordinates.
-/

noncomputable section

namespace Erosion

open Idealize.ShloMosaic Idealize.ShloMosaic.ValueIdx

variable {α : Type}

/-- The image plane under tap `(i, j)` of channel `c`, laid over the sixteen filters: at `(f, h, w)` it is the
    pixel `(h + i, c, w + j)` of the plane stack (rows, channels, columns). -/
theorem plane_apply (v1 : (⟨3, ![128, 3, 128]⟩ : Shape).Idx → α) (i j c : Fin 3)
    (hs : (⟨3, ![128, 3, 128]⟩ : Shape).Slices ![i.val, c.val, j.val] ⟨3, ![126, 1, 126]⟩)
    (hc1 : (⟨3, ![126, 1, 126]⟩ : Shape).ShapeCasts ⟨2, ![126, 126]⟩)
    (hc2 : (⟨2, ![126, 126]⟩ : Shape).ShapeCasts ⟨3, ![1, 126, 126]⟩)
    (hb : (⟨3, ![1, 126, 126]⟩ : Shape).Broadcasts ⟨3, ![16, 126, 126]⟩)
    (f : Fin 16) (h w : Fin 126) :
    broadcastTo ⟨3, ![16, 126, 126]⟩ (shapeCast ⟨3, ![1, 126, 126]⟩ (shapeCast ⟨2, ![126, 126]⟩
      (extractStridedSlice ⟨3, ![126, 1, 126]⟩ ![i.val, c.val, j.val] v1 hs) hc1) hc2) hb (ix3 f h w)
      = v1 (ix3 (shift h i) c (shift w j)) := by
  rw [broadcastTo_apply _ hb (ix3 f h w) (ix3 (0 : Fin 1) h w) (fun a => by fin_cases a <;> rfl),
    shapeCast_ab_1ab_apply,
    shapeCast_apply _ hc1 (ix2 h w) (ix3 h (0 : Fin 1) w) (by
      rw [Shape.rowMajor_val_three, Shape.rowMajor_val_two]
      show (h.val * 1 + 0) * 126 + w.val = h.val * 126 + w.val
      omega)]
  exact extractStridedSlice_apply _ v1 hs (ix3 h (0 : Fin 1) w) (ix3 (shift h i) c (shift w j)) (fun a => match a with
    | ⟨0, _⟩ => by show h.val + i.val = i.val + h.val; omega
    | ⟨1, _⟩ => by show c.val = c.val + 0; omega
    | ⟨2, _⟩ => by show w.val + j.val = j.val + w.val; omega)

/-- The structuring elements of tap `(i, j, c)`, one per filter, laid over the plane: at `(f, h, w)` it is element
    `(i, j, c, f)`. -/
theorem elems_apply (v2 : (⟨4, ![3, 3, 3, 16]⟩ : Shape).Idx → α) (i j c : Fin 3)
    (hs : (⟨4, ![3, 3, 3, 16]⟩ : Shape).Slices ![i.val, j.val, c.val, 0] ⟨4, ![1, 1, 1, 16]⟩)
    (hc1 : (⟨4, ![1, 1, 1, 16]⟩ : Shape).ShapeCasts ⟨1, ![16]⟩)
    (hc2 : (⟨1, ![16]⟩ : Shape).ShapeCasts ⟨3, ![16, 1, 1]⟩)
    (hb : (⟨3, ![16, 1, 1]⟩ : Shape).Broadcasts ⟨3, ![16, 126, 126]⟩)
    (f : Fin 16) (h w : Fin 126) :
    broadcastTo ⟨3, ![16, 126, 126]⟩ (shapeCast ⟨3, ![16, 1, 1]⟩ (shapeCast ⟨1, ![16]⟩
      (extractStridedSlice ⟨4, ![1, 1, 1, 16]⟩ ![i.val, j.val, c.val, 0] v2 hs) hc1) hc2) hb (ix3 f h w)
      = v2 (ix4 i j c f) := by
  rw [broadcastTo_apply _ hb (ix3 f h w) (ix3 f (0 : Fin 1) (0 : Fin 1)) (fun a => by fin_cases a <;> rfl),
    shapeCast_apply _ hc2 (ix3 f (0 : Fin 1) (0 : Fin 1)) (ix1 f) (by
      rw [Shape.rowMajor_val_three, Shape.rowMajor_val_one]
      show f.val = (f.val * 1 + 0) * 1 + 0
      omega),
    shapeCast_apply _ hc1 (ix1 f) (ix4 (0 : Fin 1) (0 : Fin 1) (0 : Fin 1) f) (by
      rw [Shape.rowMajor_val_four, Shape.rowMajor_val_one]
      show ((0 * 1 + 0) * 1 + 0) * 16 + f.val = f.val
      omega)]
  exact extractStridedSlice_apply _ v2 hs (ix4 (0 : Fin 1) (0 : Fin 1) (0 : Fin 1) f) (ix4 i j c f) (fun a => match a with
    | ⟨0, _⟩ => by show i.val = i.val + 0; omega
    | ⟨1, _⟩ => by show j.val = j.val + 0; omega
    | ⟨2, _⟩ => by show c.val = c.val + 0; omega
    | ⟨3, _⟩ => by show f.val = 0 + f.val; omega)

/-- One pass of the running minimum: the 16 × 126 × 126 minimum so far against the difference for tap `(i, j, c)`,
    read at `(f, h, w)`. -/
theorem pass_apply (v1 : (⟨3, ![128, 3, 128]⟩ : Shape).Idx → Ideal .f32) (v2 : (⟨4, ![3, 3, 3, 16]⟩ : Shape).Idx → Ideal .f32)
    (prev : (⟨3, ![16, 126, 126]⟩ : Shape).Idx → Ideal .f32) (i j c : Fin 3)
    (hs1 : (⟨3, ![128, 3, 128]⟩ : Shape).Slices ![i.val, c.val, j.val] ⟨3, ![126, 1, 126]⟩)
    (hc1 : (⟨3, ![126, 1, 126]⟩ : Shape).ShapeCasts ⟨2, ![126, 126]⟩)
    (hc2 : (⟨2, ![126, 126]⟩ : Shape).ShapeCasts ⟨3, ![1, 126, 126]⟩)
    (hb1 : (⟨3, ![1, 126, 126]⟩ : Shape).Broadcasts ⟨3, ![16, 126, 126]⟩)
    (hs2 : (⟨4, ![3, 3, 3, 16]⟩ : Shape).Slices ![i.val, j.val, c.val, 0] ⟨4, ![1, 1, 1, 16]⟩)
    (hc3 : (⟨4, ![1, 1, 1, 16]⟩ : Shape).ShapeCasts ⟨1, ![16]⟩)
    (hc4 : (⟨1, ![16]⟩ : Shape).ShapeCasts ⟨3, ![16, 1, 1]⟩)
    (hb2 : (⟨3, ![16, 1, 1]⟩ : Shape).Broadcasts ⟨3, ![16, 126, 126]⟩)
    (hcc : (⟨3, ![16, 126, 126]⟩ : Shape).ShapeCasts ⟨3, ![16, 126, 126]⟩)
    (f : Fin 16) (h w : Fin 126) :
    shapeCast ⟨3, ![16, 126, 126]⟩ (minimumf (F := Ideal) prev (subf
      (broadcastTo ⟨3, ![16, 126, 126]⟩ (shapeCast ⟨3, ![1, 126, 126]⟩ (shapeCast ⟨2, ![126, 126]⟩
        (extractStridedSlice ⟨3, ![126, 1, 126]⟩ ![i.val, c.val, j.val] v1 hs1) hc1) hc2) hb1)
      (broadcastTo ⟨3, ![16, 126, 126]⟩ (shapeCast ⟨3, ![16, 1, 1]⟩ (shapeCast ⟨1, ![16]⟩
        (extractStridedSlice ⟨4, ![1, 1, 1, 16]⟩ ![i.val, j.val, c.val, 0] v2 hs2) hc3) hc4) hb2))) hcc (ix3 f h w)
      = min (prev (ix3 f h w)) (v1 (ix3 (shift h i) c (shift w j)) - v2 (ix4 i j c f)) := by
  rw [shapeCast_self]
  show min (prev (ix3 f h w)) (_ - _) = _
  rw [plane_apply, elems_apply]

/-- The first pass stores the difference for tap `(0, 0, 0)` itself. -/
theorem first_apply (v1 : (⟨3, ![128, 3, 128]⟩ : Shape).Idx → Ideal .f32) (v2 : (⟨4, ![3, 3, 3, 16]⟩ : Shape).Idx → Ideal .f32)
    (i j c : Fin 3)
    (hs1 : (⟨3, ![128, 3, 128]⟩ : Shape).Slices ![i.val, c.val, j.val] ⟨3, ![126, 1, 126]⟩)
    (hc1 : (⟨3, ![126, 1, 126]⟩ : Shape).ShapeCasts ⟨2, ![126, 126]⟩)
    (hc2 : (⟨2, ![126, 126]⟩ : Shape).ShapeCasts ⟨3, ![1, 126, 126]⟩)
    (hb1 : (⟨3, ![1, 126, 126]⟩ : Shape).Broadcasts ⟨3, ![16, 126, 126]⟩)
    (hs2 : (⟨4, ![3, 3, 3, 16]⟩ : Shape).Slices ![i.val, j.val, c.val, 0] ⟨4, ![1, 1, 1, 16]⟩)
    (hc3 : (⟨4, ![1, 1, 1, 16]⟩ : Shape).ShapeCasts ⟨1, ![16]⟩)
    (hc4 : (⟨1, ![16]⟩ : Shape).ShapeCasts ⟨3, ![16, 1, 1]⟩)
    (hb2 : (⟨3, ![16, 1, 1]⟩ : Shape).Broadcasts ⟨3, ![16, 126, 126]⟩)
    (hcc : (⟨3, ![16, 126, 126]⟩ : Shape).ShapeCasts ⟨3, ![16, 126, 126]⟩)
    (f : Fin 16) (h w : Fin 126) :
    shapeCast ⟨3, ![16, 126, 126]⟩ (subf (F := Ideal)
      (broadcastTo ⟨3, ![16, 126, 126]⟩ (shapeCast ⟨3, ![1, 126, 126]⟩ (shapeCast ⟨2, ![126, 126]⟩
        (extractStridedSlice ⟨3, ![126, 1, 126]⟩ ![i.val, c.val, j.val] v1 hs1) hc1) hc2) hb1)
      (broadcastTo ⟨3, ![16, 126, 126]⟩ (shapeCast ⟨3, ![16, 1, 1]⟩ (shapeCast ⟨1, ![16]⟩
        (extractStridedSlice ⟨4, ![1, 1, 1, 16]⟩ ![i.val, j.val, c.val, 0] v2 hs2) hc3) hc4) hb2)) hcc (ix3 f h w)
      = v1 (ix3 (shift h i) c (shift w j)) - v2 (ix4 i j c f) := by
  rw [shapeCast_self]
  show _ - _ = _
  rw [plane_apply, elems_apply]

/-- A lane-wise maximum-reduce over the leading filter axis of 16 × 126 × 126, accumulated from −∞'s word, read at
    `(h, w)`: the fold of `max` from that word's value over the sixteen filter entries. -/
theorem laneMax_filters (S : FVec Ideal (⟨3, ![16, 126, 126]⟩ : Shape) .f32)
    (hR : (⟨3, ![16, 126, 126]⟩ : Shape).Reduces [0] ⟨2, ![126, 126]⟩) (hφ : FKind.Formats .f32)
    (hacc : (0xFF800000#32 : BitVec FTy.f32.bits) = FKind.maximumf.neutral .f32 hφ) (h w : Fin 126) (e : Fin 16 → Ideal .f32)
    (he : ∀ f : Fin 16, S (ix3 f h w) = e f) :
    multiReduction .maximumf [0] ⟨2, ![126, 126]⟩ S 0xFF800000#32 hR hφ hacc (ix2 h w)
      = (Finset.univ : Finset (Fin 16)).fold max (Ideal.ofBits .f32 0xFF800000#32) e := by
  rw [Ideal.multiReduction_maximumf_single]
  have hl : ∀ f : Fin 16, hR.lift (ix2 h w) f = ix3 f h w := fun f => by
    funext a; apply Fin.ext; fin_cases a <;> rfl
  have hf : (S ∘ hR.lift (ix2 h w)) = e := funext fun f => by
    show S (hR.lift (ix2 h w) f) = e f
    rw [hl f]; exact he f
  rw [hf]
  rfl

/-- A whole-buffer load after whole-buffer stores reads what the LAST store wrote, whatever was stored before:
    a scratch buffer overwritten pass after pass and read back each time. -/
theorem View.readCov_last_whole {Val : EltTy → Type} [∀ e, Nonempty (Val e)] {S : Shape} {e : EltTy}
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Erosion

end
-- ==== Proof.KernelBlock.lean ====
import proofs.«122516_j62861141344687_2_alg».proof.Proof.Gen.KernelIdeal.Frame
import proofs.«122516_j62861141344687_2_alg».proof.Proof.KernelReaders
import Idealize.ShloMosaic.Lib.Tactic

/-!
# What the kernel body leaves in one output block

At one grid point the body holds one image as a stack of planes (rows × channels × columns) and the whole table
of structuring elements. It sweeps the 27 taps in lexicographic order `(i, j, c)`, each pass overwriting a
16 × 126 × 126 scratch with the minimum of what it held and the tap's difference (the first pass stores the
difference itself), and finally stores the maximum of the scratch over its filter axis. Read at `(h, w)` the
block is therefore the maximum over the filters of the running minimum over the taps.
-/

set_option maxRecDepth 16384

noncomputable section

open Idealize.ShloMosaic Idealize.ShloMosaic.TcCoe Idealize.SL.Sem Idealize.ShloMosaic.Tactic
open Idealize.ShloMosaic.ValueIdx

namespace Cert.KernelIdeal.Erode

open Cert.KernelIdeal Cert.KernelIdeal.Gen Erosion

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- Tap `(i, j, c)` of filter `f` at `(h, w)`, over one image held as a stack of planes. -/
def stackTap (v1 : FVec Ideal S128x3x128 .f32) (x1 : Vec Ideal S3x3x3x16 .f32) (f : Fin 16) (h w : Fin 126)
    (i j c : Fin 3) : Ideal .f32 :=
  v1 (ix3 (shift h i) c (shift w j)) - x1 (ix4 i j c f)

/-- The output block at `(h, w)`: the maximum over the filters of the running minimum over the 27 taps. -/
theorem block_apply (c : Dev nD) (i : grid0.Coords) (a1 : Memref sig .tc .vmem S1x128x3x128 .f32) (h1 : a1.IsWhole)
    (a2 : Memref sig .tc .vmem S3x3x3x16 .f32) (h2 : a2.IsWhole) (a3 : Memref sig .tc .vmem S1x126x126 .f32) (h3 : a3.IsWhole)
    (a4 : Memref sig .tc .vmem S16x126x126 .f32) (h4 : a4.IsWhole)
    (x0 : Vec Ideal S1x128x3x128 .f32) (x1 : Vec Ideal S3x3x3x16 .f32) (u : Fin 1) (h w : Fin 126) :
    out0_A_2 (F := Ideal) c i a1 h1 a2 h2 a3 h3 a4 h4 x0 x1 (ix3 u h w)
      = (Finset.univ : Finset (Fin 16)).fold max (Ideal.ofBits .f32 0xFF800000#32)
          (fun f => MinTaps.running (stackTap (k0_pay4 x0) x1 f h w)) := by
  unfold out0_A_2
  rw [View.read_writes_eq_canon _ _ _ (cover0_A_2 c i a1 h1 a2 h2 a3 h3 a4 h4 x0 x1)]
  unfold kernelRun0_A
  dsimp only
  sl_unfold_words
  rw [View.canon_unit_zero zeros3]
  simp only [View.readCov_last_whole (S := S16x126x126) _ zeros3, View.readAt_eq_ld, h1.read_unread, h2.read_unread,
    View.ld_unit_zero (S := S1x128x3x128) zeros4, View.ld_unit_zero (S := S3x3x3x16) zeros4]
  unfold k0_pay3
  refine (shapeCast_ab_1ab_apply _ _ u h w).trans ?_
  refine laneMax_filters _ _ _ _ h w _ (fun f => ?_)
  unfold MinTaps.running MinTaps.pass3
  refine (pass_apply (k0_pay4 x0) x1 _ 2 2 2 slices_S128x3x128_o2_2_2_S126x1x126 shapeCasts_S126x1x126_S126x126
    shapeCasts_S126x126_S1x126x126 broadcasts_S1x126x126_S16x126x126 slices_S3x3x3x16_o2_2_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 2 1 slices_S128x3x128_o2_1_2_S126x1x126 shapeCasts_S126x1x126_S126x126
    shapeCasts_S126x126_S1x126x126 broadcasts_S1x126x126_S16x126x126 slices_S3x3x3x16_o2_2_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 2 0 slices_S128x3x128_o2_0_2_S126x1x126 shapeCasts_S126x1x126_S126x126
    shapeCasts_S126x126_S1x126x126 broadcasts_S1x126x126_S16x126x126 slices_S3x3x3x16_o2_2_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 1 2 slices_S128x3x128_o2_2_1_S126x1x126 shapeCasts_S126x1x126_S126x126
    shapeCasts_S126x126_S1x126x126 broadcasts_S1x126x126_S16x126x126 slices_S3x3x3x16_o2_1_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 1 1 slices_S128x3x128_o2_1_1_S126x1x126 shapeCasts_S126x1x126_S126x126
    shapeCasts_S126x126_S1x126x126 broadcasts_S1x126x126_S16x126x126 slices_S3x3x3x16_o2_1_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 1 0 slices_S128x3x128_o2_0_1_S126x1x126 shapeCasts_S126x1x126_S126x126
    shapeCasts_S126x126_S1x126x126 broadcasts_S1x126x126_S16x126x126 slices_S3x3x3x16_o2_1_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 0 2 slices_S128x3x128_o2_2_0_S126x1x126 shapeCasts_S126x1x126_S126x126
    shapeCasts_S126x126_S1x126x126 broadcasts_S1x126x126_S16x126x126 slices_S3x3x3x16_o2_0_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 0 1 slices_S128x3x128_o2_1_0_S126x1x126 shapeCasts_S126x1x126_S126x126
    shapeCasts_S126x126_S1x126x126 broadcasts_S1x126x126_S16x126x126 slices_S3x3x3x16_o2_0_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 2 0 0 slices_S128x3x128_o2_0_0_S126x1x126 shapeCasts_S126x1x126_S126x126
    shapeCasts_S126x126_S1x126x126 broadcasts_S1x126x126_S16x126x126 slices_S3x3x3x16_o2_0_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 2 2 slices_S128x3x128_o1_2_2_S126x1x126 shapeCasts_S126x1x126_S126x126
    shapeCasts_S126x126_S1x126x126 broadcasts_S1x126x126_S16x126x126 slices_S3x3x3x16_o1_2_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 2 1 slices_S128x3x128_o1_1_2_S126x1x126 shapeCasts_S126x1x126_S126x126
    shapeCasts_S126x126_S1x126x126 broadcasts_S1x126x126_S16x126x126 slices_S3x3x3x16_o1_2_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 2 0 slices_S128x3x128_o1_0_2_S126x1x126 shapeCasts_S126x1x126_S126x126
    shapeCasts_S126x126_S1x126x126 broadcasts_S1x126x126_S16x126x126 slices_S3x3x3x16_o1_2_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 1 2 slices_S128x3x128_o1_2_1_S126x1x126 shapeCasts_S126x1x126_S126x126
    shapeCasts_S126x126_S1x126x126 broadcasts_S1x126x126_S16x126x126 slices_S3x3x3x16_o1_1_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 1 1 slices_S128x3x128_o1_1_1_S126x1x126 shapeCasts_S126x1x126_S126x126
    shapeCasts_S126x126_S1x126x126 broadcasts_S1x126x126_S16x126x126 slices_S3x3x3x16_o1_1_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 1 0 slices_S128x3x128_o1_0_1_S126x1x126 shapeCasts_S126x1x126_S126x126
    shapeCasts_S126x126_S1x126x126 broadcasts_S1x126x126_S16x126x126 slices_S3x3x3x16_o1_1_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 0 2 slices_S128x3x128_o1_2_0_S126x1x126 shapeCasts_S126x1x126_S126x126
    shapeCasts_S126x126_S1x126x126 broadcasts_S1x126x126_S16x126x126 slices_S3x3x3x16_o1_0_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 0 1 slices_S128x3x128_o1_1_0_S126x1x126 shapeCasts_S126x1x126_S126x126
    shapeCasts_S126x126_S1x126x126 broadcasts_S1x126x126_S16x126x126 slices_S3x3x3x16_o1_0_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 1 0 0 slices_S128x3x128_o1_0_0_S126x1x126 shapeCasts_S126x1x126_S126x126
    shapeCasts_S126x126_S1x126x126 broadcasts_S1x126x126_S16x126x126 slices_S3x3x3x16_o1_0_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 2 2 slices_S128x3x128_o0_2_2_S126x1x126 shapeCasts_S126x1x126_S126x126
    shapeCasts_S126x126_S1x126x126 broadcasts_S1x126x126_S16x126x126 slices_S3x3x3x16_o0_2_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 2 1 slices_S128x3x128_o0_1_2_S126x1x126 shapeCasts_S126x1x126_S126x126
    shapeCasts_S126x126_S1x126x126 broadcasts_S1x126x126_S16x126x126 slices_S3x3x3x16_o0_2_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 2 0 slices_S128x3x128_o0_0_2_S126x1x126 shapeCasts_S126x1x126_S126x126
    shapeCasts_S126x126_S1x126x126 broadcasts_S1x126x126_S16x126x126 slices_S3x3x3x16_o0_2_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 1 2 slices_S128x3x128_o0_2_1_S126x1x126 shapeCasts_S126x1x126_S126x126
    shapeCasts_S126x126_S1x126x126 broadcasts_S1x126x126_S16x126x126 slices_S3x3x3x16_o0_1_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 1 1 slices_S128x3x128_o0_1_1_S126x1x126 shapeCasts_S126x1x126_S126x126
    shapeCasts_S126x126_S1x126x126 broadcasts_S1x126x126_S16x126x126 slices_S3x3x3x16_o0_1_1_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 1 0 slices_S128x3x128_o0_0_1_S126x1x126 shapeCasts_S126x1x126_S126x126
    shapeCasts_S126x126_S1x126x126 broadcasts_S1x126x126_S16x126x126 slices_S3x3x3x16_o0_1_0_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 0 2 slices_S128x3x128_o0_2_0_S126x1x126 shapeCasts_S126x1x126_S126x126
    shapeCasts_S126x126_S1x126x126 broadcasts_S1x126x126_S16x126x126 slices_S3x3x3x16_o0_0_2_0_S1x1x1x16 shapeCasts_S1x1x1x16_S16
    shapeCasts_S16_S16x1x1 broadcasts_S16x1x1_S16x126x126 shapeCasts_S16x126x126_S16x126x126 f h w).trans (congrArg (fun a => min a _) ?_)
  refine (pass_apply (k0_pay4 x0) x1 _ 0 0 1 slices_S128x3x128_o0_1_0_S126x1x126 shapeCasts_S126x1x126_S126x126
    shapeCasts_S126x126_S1x126x126 broadcasts_S1x126x126_S16x126x126 slices_S3x3x3x16_o0_0_1_0_S1x1x1x16 shapeCasts_S1x1x1x16_S16
    shapeCasts_S16_S16x1x1 broadcasts_S16x1x1_S16x126x126 shapeCasts_S16x126x126_S16x126x126 f h w).trans (congrArg (fun a => min a _) ?_)
  exact first_apply (k0_pay4 x0) x1 0 0 0 slices_S128x3x128_o0_0_0_S126x1x126 shapeCasts_S126x1x126_S126x126
    shapeCasts_S126x126_S1x126x126 broadcasts_S1x126x126_S16x126x126 slices_S3x3x3x16_o0_0_0_0_S1x1x1x16 shapeCasts_S1x1x1x16_S16
    shapeCasts_S16_S16x1x1 broadcasts_S16x1x1_S16x126x126 shapeCasts_S16x126x126_S16x126x126 f h w

/-- Tap `(i, j, c)` of filter `f` at `(h, w)`, over the image block itself (one image, rows × channels × columns). -/
def blockTap (x0 : Vec Ideal S1x128x3x128 .f32) (x1 : Vec Ideal S3x3x3x16 .f32) (f : Fin 16) (h w : Fin 126)
    (i j c : Fin 3) : Ideal .f32 :=
  x0 (ix4 (0 : Fin 1) (shift h i) c (shift w j)) - x1 (ix4 i j c f)

/-- The stack of planes is the block with its leading unit axis dropped. -/
theorem stackTap_eq_blockTap (x0 : Vec Ideal S1x128x3x128 .f32) (x1 : Vec Ideal S3x3x3x16 .f32) (f : Fin 16) (h w : Fin 126) :
    stackTap (k0_pay4 x0) x1 f h w = blockTap x0 x1 f h w := by
  funext i j c
  unfold stackTap blockTap k0_pay4
  rw [shapeCast_1abc_abc_apply]

/-- The output block at `(h, w)` over the taps of the block itself. -/
theorem block_apply' (c : Dev nD) (i : grid0.Coords) (a1 : Memref sig .tc .vmem S1x128x3x128 .f32) (h1 : a1.IsWhole)
    (a2 : Memref sig .tc .vmem S3x3x3x16 .f32) (h2 : a2.IsWhole) (a3 : Memref sig .tc .vmem S1x126x126 .f32) (h3 : a3.IsWhole)
    (a4 : Memref sig .tc .vmem S16x126x126 .f32) (h4 : a4.IsWhole)
    (x0 : Vec Ideal S1x128x3x128 .f32) (x1 : Vec Ideal S3x3x3x16 .f32) (u : Fin 1) (h w : Fin 126) :
    out0_A_2 (F := Ideal) c i a1 h1 a2 h2 a3 h3 a4 h4 x0 x1 (ix3 u h w)
      = (Finset.univ : Finset (Fin 16)).fold max (Ideal.ofBits .f32 0xFF800000#32)
          (fun f => MinTaps.running (blockTap x0 x1 f h w)) := by
  rw [block_apply]
  exact congrArg (fun g => (Finset.univ : Finset (Fin 16)).fold max (Ideal.ofBits .f32 0xFF800000#32) g)
    (funext fun f => congrArg MinTaps.running (stackTap_eq_blockTap x0 x1 f h w))

end Cert.KernelIdeal.Erode

end
-- ==== Proof.KernelValue.lean ====
import proofs.«122516_j62861141344687_2_alg».proof.Proof.KernelBlock
import Idealize.ShloMosaic.Lib.StableHlo.Run
import Idealize.ShloMosaic.Lib.Pipeline.Value

/-!
# The kernel's result array

Grid point `t` works on image `t`: its input block is image `t` of the batch with channels and columns swapped
(the host transposes the batch before the call), its second input is the whole table of elements, and its
output block is plane `t` of a 16 × 126 × 126 array. So that array ends holding, at `(n, h, w)`, the
specification's `peak`; the host then appends a unit axis.
-/

set_option maxRecDepth 16384

noncomputable section

open Idealize.ShloMosaic Idealize.ShloMosaic.TcCoe Idealize.SL.Sem Idealize.ShloMosaic.Tactic
open Idealize.ShloMosaic.ValueIdx
open Idealize.ShloMosaic.Pipeline (Dat)

namespace Cert.KernelIdeal.Erode

open Cert.KernelIdeal Cert.KernelIdeal.Gen Erosion

variable (m : (ℓ : Loc nD τ sig) → Buf (Elt Ideal) ℓ) (ρ : Dev nD → PrngReg)

/-- The image a grid point works on. -/
abbrev img (t : Fin cfg0.N) : Fin 16 := ⟨t.val, Nat.lt_of_lt_of_eq t.isLt N_0⟩

/-- The printed index maps, decided over the sixteen points: point `t` takes block `(t, 0, 0, 0)` of the image
    stack, block `(0, 0, 0, 0)` of the elements and writes block `(t, 0, 0)` of the output. -/
theorem idx_facts : ∀ t : Fin cfg0.N,
    win0_0.index t (0 : Fin 4) = t.val ∧ win0_0.index t (1 : Fin 4) = 0
    ∧ win0_0.index t (2 : Fin 4) = 0 ∧ win0_0.index t (3 : Fin 4) = 0
    ∧ win0_1.index t (0 : Fin 4) = 0 ∧ win0_1.index t (1 : Fin 4) = 0
    ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The array the first window stages is the batch with its last two axes swapped. -/
theorem V_planes (c : Dev nD) : (V m c main_v0 : S16x128x3x128.Idx → Ideal .f32)
    = transpose S16x128x3x128 [0, 1, 3, 2] (m ((c : Thread nD τ).loc main_arg0)) transposes_S16x128x128x3_S16x128x3x128_0_1_3_2 := by
  show StableHlo.after hostOps0 (fun b => m (c, b)) (Proc.devRef .tc main_v0) = _
  after_results

/-- The image block at point `t`, at `(0, y, c, z)`, is pixel `(t, y, z, c)` of the batch. -/
theorem plane_block (c : Dev nD) (t : Fin cfg0.N) (y : Fin 128) (ch : Fin 3) (z : Fin 128) :
    (iblk m c 0 t : Vec Ideal S1x128x3x128 .f32) (ix4 (0 : Fin 1) y ch z)
      = (m ((c : Thread nD τ).loc main_arg0) : S16x128x128x3.Idx → Ideal .f32) (ix4 (img t) y z ch) := by
  obtain ⟨e0, e1, e2, e3, -⟩ := idx_facts t
  have hemb : ((cfg0.win 0).blk t).view.emb (ix4 (0 : Fin 1) y ch z) = ix4 (img t) y ch z := by
    funext a; apply Fin.ext
    match a with
    | ⟨0, _⟩ => show win0_0.index t (0 : Fin 4) * 1 + 1 * 0 = t.val; rw [e0]; omega
    | ⟨1, _⟩ => show win0_0.index t (1 : Fin 4) * 128 + 1 * y.val = y.val; rw [e1]; omega
    | ⟨2, _⟩ => show win0_0.index t (2 : Fin 4) * 3 + 1 * ch.val = ch.val; rw [e2]; omega
    | ⟨3, _⟩ => show win0_0.index t (3 : Fin 4) * 128 + 1 * z.val = z.val; rw [e3]; omega
  unfold iblk
  rw [View.read_apply]
  show V m c main_v0 (((cfg0.win 0).blk t).view.emb (ix4 (0 : Fin 1) y ch z)) = _
  rw [hemb]
  refine (congrFun (V_planes m c) (ix4 (img t) y ch z)).trans ?_
  exact transpose_apply _ _ _ (ix4 (img t) y ch z) (ix4 (img t) y z ch) (fun b => by fin_cases b <;> rfl)

/-- The element block at every point is the whole table. -/
theorem elems_block (c : Dev nD) (t : Fin cfg0.N) (q : S3x3x3x16.Idx) :
    (iblk m c 1 t : Vec Ideal S3x3x3x16 .f32) q = (m ((c : Thread nD τ).loc main_arg1) : S3x3x3x16.Idx → Ideal .f32) q := by
  obtain ⟨-, -, -, -, e0, e1, e2, e3, -⟩ := idx_facts t
  have hemb : ((cfg0.win 1).blk t).view.emb q = q := by
    funext a; apply Fin.ext
    match a with
    | ⟨0, _⟩ => show win0_1.index t (0 : Fin 4) * 3 + 1 * (q 0).val = (q 0).val; rw [e0]; omega
    | ⟨1, _⟩ => show win0_1.index t (1 : Fin 4) * 3 + 1 * (q 1).val = (q 1).val; rw [e1]; omega
    | ⟨2, _⟩ => show win0_1.index t (2 : Fin 4) * 3 + 1 * (q 2).val = (q 2).val; rw [e2]; omega
    | ⟨3, _⟩ => show win0_1.index t (3 : Fin 4) * 16 + 1 * (q 3).val = (q 3).val; rw [e3]; omega
  unfold iblk
  rw [View.read_apply]
  show V m c main_arg1 (((cfg0.win 1).blk t).view.emb q) = _
  rw [hemb, V_main_arg1]

/-- So the taps of the block at point `t` are the specification's taps of image `t`. -/
theorem blockTap_eq (c : Dev nD) (t : Fin cfg0.N) (f : Fin 16) (h w : Fin 126) :
    blockTap (iblk m c 0 t) (iblk m c 1 t) f h w
      = tap (m ((c : Thread nD τ).loc main_arg0)) (m ((c : Thread nD τ).loc main_arg1)) (img t) h w f := by
  funext i j ch
  unfold blockTap tap
  exact congr (congrArg HSub.hSub (plane_block m c t (shift h i) ch (shift w j))) (elems_block m c t (ix4 i j ch f))

/-- The array the call leaves: at `(n, h, w)` the specification's `peak`. -/
def planes (x : Img) (s : Elems) : S16x126x126.Idx → Ideal .f32 := fun q => peak x s (q 0) (q 1) (q 2)

/-- What point `t` writes back is block `t` of `planes`. -/
theorem flushed_eq (c : Dev nD) (t : Fin cfg0.N) :
    (dats m 0 c).flushed 2 t = ((cfg0.win 2).blk t).view.read (Elt Ideal)
      (planes (m ((c : Thread nD τ).loc main_arg0)) (m ((c : Thread nD τ).loc main_arg1))) := by
  obtain ⟨-, -, -, -, -, -, -, -, e0, e1, e2⟩ := idx_facts t
  show (cfg0.win 2).cut (grid0.coords t) ((dats m 0 c).after 2 t) = _
  rw [after0_2]
  unfold outsAt0
  funext y
  obtain ⟨u, h, w, rfl⟩ : ∃ (u : Fin 1) (h w : Fin 126), y = ix3 u h w := ⟨y 0, y 1, y 2, eq_ix3 y⟩
  have hu : u.val = 0 := by omega
  have hemb : ((cfg0.win 2).blk t).view.emb (ix3 u h w) = ix3 (img t) h w := by
    funext a; apply Fin.ext
    match a with
    | ⟨0, _⟩ => show win0_2.index t (0 : Fin 3) * 1 + 1 * u.val = t.val; rw [e0]; omega
    | ⟨1, _⟩ => show win0_2.index t (1 : Fin 3) * 126 + 1 * h.val = h.val; rw [e1]; omega
    | ⟨2, _⟩ => show win0_2.index t (2 : Fin 3) * 126 + 1 * w.val = w.val; rw [e2]; omega
  show out0_A_2 c (grid0.coords t) (ms0_0 t) (hs0_0 t) (ms0_1 t) (hs0_1 t) (ms0_2 t) (hs0_2 t) scM0_0 (Memref.isWhole_whole _)
      (iblk m c 0 t) (iblk m c 1 t) (ix3 u h w)
    = planes (m ((c : Thread nD τ).loc main_arg0)) (m ((c : Thread nD τ).loc main_arg1)) (((cfg0.win 2).blk t).view.emb (ix3 u h w))
  rw [hemb]
  refine (block_apply' c (grid0.coords t) (ms0_0 t) (hs0_0 t) (ms0_1 t) (hs0_1 t) (ms0_2 t) (hs0_2 t) scM0_0 (Memref.isWhole_whole _)
    (iblk m c 0 t) (iblk m c 1 t) u h w).trans ?_
  show _ = peak _ _ (img t) h w
  unfold peak eroded
  exact congrArg (fun g => (Finset.univ : Finset (Fin 16)).fold max (Ideal.ofBits .f32 0xFF800000#32) g)
    (funext fun f => congrArg MinTaps.running (blockTap_eq m c t f h w))

/-- An index of the output array is in point `t`'s block iff each coordinate is in the block's range. -/
theorem mem_blk (t : Fin cfg0.N) (i : S16x126x126.Idx) :
    i ∈ ((cfg0.win 2).blk t).view.set ↔ ∀ a : Fin 3, win0_2.index t a * S1x126x126.size a ≤ (i a).val
      ∧ (i a).val < win0_2.index t a * S1x126x126.size a + S1x126x126.size a := by
  show i ∈ ((View.whole main_v1).slice (win0_2.rect t)).set ↔ _
  rw [View.set_slice_whole, Rect.mem_set_unit]
  exact Iff.rfl

/-- Plane `n` of the output is point `n`'s block: the sixteen blocks cover the array. -/
theorem cover (i : S16x126x126.Idx) :
    ∃ t : Fin cfg0.N, (cfg0.win 2).flush t = true ∧ i ∈ ((cfg0.win 2).blk t).view.set := by
  have hi0 : (i 0).val < 16 := (i 0).isLt
  have hi1 : (i 1).val < 126 := (i 1).isLt
  have hi2 : (i 2).val < 126 := (i 2).isLt
  obtain ⟨t, ht⟩ : ∃ t : Fin cfg0.N, t.val = (i 0).val := ⟨⟨(i 0).val, by rw [show cfg0.N = 16 from N_0]; exact hi0⟩, rfl⟩
  obtain ⟨-, -, -, -, -, -, -, -, e0, e1, e2⟩ := idx_facts t
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; rw [e0]; omega
  | ⟨1, _⟩ => show win0_2.index t (1 : Fin 3) * 126 ≤ (i 1).val ∧ (i 1).val < win0_2.index t (1 : Fin 3) * 126 + 126; rw [e1]; omega
  | ⟨2, _⟩ => show win0_2.index t (2 : Fin 3) * 126 ≤ (i 2).val ∧ (i 2).val < win0_2.index t (2 : Fin 3) * 126 + 126; rw [e2]; omega

/-- The output array after the run. -/
theorem final (c : Dev nD) : (dats m 0 c).arrAt 2 cfg0.N
    = planes (m ((c : Thread nD τ).loc main_arg0)) (m ((c : Thread nD τ).loc main_arg1)) :=
  (dats m 0 c).arrAt_eq_of_cover 2 _ (fun t _ => flushed_eq m c t) cover

/-- After the call the host appends a unit axis: the program's result is the specification's. -/
theorem tail_eq (c : Dev nD) : Pipeline.afterTail₀ cfgs (dats m) 0 (V0 m) [hostOps1] c main_v2
    = result (m ((c : Thread nD τ).loc main_arg0)) (m ((c : Thread nD τ).loc main_arg1)) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1)
      = planes (m ((c : Thread nD τ).loc main_arg0)) (m ((c : Thread nD τ).loc main_arg1)) :=
    (Pipeline.withArrays_arr spec0 launch0.win.arr_inj c _ _ 2).trans (final m c)
  refine (congrArg (broadcastInDim S16x126x126x1 ![0, 1, 2] bcast_S16x126x126_S16x126x126x1_0_1_2) e).trans ?_
  funext q
  obtain ⟨n, h, w, u, rfl⟩ : ∃ (n : Fin 16) (h w : Fin 126) (u : Fin 1), q = ix4 n h w u := ⟨q 0, q 1, q 2, q 3, eq_ix4 q⟩
  exact broadcastInDim_apply _ bcast_S16x126x126_S16x126x126x1_0_1_2 _ (ix4 n h w u) (ix3 n h w) (fun a => by fin_cases a <;> rfl)

/-- The run, read: the program's result at the specification's `result` of the arguments, the arguments unchanged. -/
theorem run : θ_run defs (onTc (τ := τ) (main (F := Ideal))) ⟨m, fun _ => 0, ρ⟩ fun r => ∀ c : Dev nD,
      r.2.mem ((c.tc : Thread nD τ).loc main_v2)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Erode

end
-- ==== Proof.HostReaders.lean ====
import Idealize.ShloMosaic.PureOps.Ideal
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«122516_j62861141344687_2_alg».proof.Proof.Erosion

/-!
# The reference's host operations, read at an index

For each tap pair `(i, j)` the reference cuts the 126 × 126 window of the whole image batch at offset `(i, j)`,
subtracts the 3 × 16 table of elements under the pair (both laid out over 16 × 126 × 126 × 3 × 16), and reduces
the channel axis by `min` from +∞; the nine results are combined by `min`, and the filter axis is reduced by `max`
from −∞.
-/

noncomputable section

namespace Erosion

open Idealize.ShloMosaic Idealize.ShloMosaic.ValueIdx

variable {α : Type}

/-- The reference's image operand for tap pair `(i, j)`: the image cut to the 126 × 126 window at offset `(i, j)`,
    given a trailing unit axis and laid over the sixteen filters. At `(n, h, w, c, f)` it is pixel
    `(n, h + i, w + j, c)`. -/
theorem imgUnder_apply (x0 : (⟨4, ![16, 128, 128, 3]⟩ : Shape).Idx → α) (i j : Fin 3)
    (hs : (⟨4, ![16, 128, 128, 3]⟩ : Shape).Slices ![0, i.val, j.val, 0] ⟨4, ![16, 126, 126, 3]⟩)
    (hb0 : (⟨4, ![16, 126, 126, 3]⟩ : Shape).BroadcastsInDim ⟨5, ![16, 126, 126, 3, 1]⟩ (![0, 1, 2, 3] : Fin 4 → Fin 5))
    (hb1 : (⟨5, ![16, 126, 126, 3, 1]⟩ : Shape).BroadcastsInDim ⟨5, ![16, 126, 126, 3, 16]⟩ (![0, 1, 2, 3, 4] : Fin 5 → Fin 5))
    (n : Fin 16) (h w : Fin 126) (c : Fin 3) (f : Fin 16) :
    broadcastInDim ⟨5, ![16, 126, 126, 3, 16]⟩ ![0, 1, 2, 3, 4] hb1 (broadcastInDim ⟨5, ![16, 126, 126, 3, 1]⟩ ![0, 1, 2, 3] hb0
      (extractStridedSlice ⟨4, ![16, 126, 126, 3]⟩ ![0, i.val, j.val, 0] x0 hs)) (ix5 n h w c f)
      = x0 (ix4 n (shift h i) (shift w j) c) := by
  rw [broadcastInDim_apply _ hb1 _ (ix5 n h w c f) (ix5 n h w c (0 : Fin 1)) (fun a => by fin_cases a <;> rfl),
    broadcastInDim_apply _ hb0 _ (ix5 n h w c (0 : Fin 1)) (ix4 n h w c) (fun a => by fin_cases a <;> rfl)]
  exact extractStridedSlice_apply _ x0 hs (ix4 n h w c) (ix4 n (shift h i) (shift w j) c) (fun a => match a with
    | ⟨0, _⟩ => by show n.val = 0 + n.val; omega
    | ⟨1, _⟩ => by show h.val + i.val = i.val + h.val; omega
    | ⟨2, _⟩ => by show w.val + j.val = j.val + w.val; omega
    | ⟨3, _⟩ => by show c.val = 0 + c.val; omega)

/-- The reference's element operand for tap pair `(i, j)`: the 3 × 16 table of elements under the pair, laid over
    images, rows and columns. At `(n, h, w, c, f)` it is element `(i, j, c, f)`. -/
theorem elemsUnder_apply (x1 : (⟨4, ![3, 3, 3, 16]⟩ : Shape).Idx → α) (i j : Fin 3)
    (hs : (⟨4, ![3, 3, 3, 16]⟩ : Shape).Slices ![i.val, j.val, 0, 0] ⟨4, ![1, 1, 3, 16]⟩)
    (hc : (⟨4, ![1, 1, 3, 16]⟩ : Shape).ShapeCasts ⟨2, ![3, 16]⟩)
    (hb2 : (⟨2, ![3, 16]⟩ : Shape).BroadcastsInDim ⟨5, ![1, 1, 1, 3, 16]⟩ (![3, 4] : Fin 2 → Fin 5))
    (hb3 : (⟨5, ![1, 1, 1, 3, 16]⟩ : Shape).BroadcastsInDim ⟨5, ![16, 126, 126, 3, 16]⟩ (![0, 1, 2, 3, 4] : Fin 5 → Fin 5))
    (n : Fin 16) (h w : Fin 126) (c : Fin 3) (f : Fin 16) :
    broadcastInDim ⟨5, ![16, 126, 126, 3, 16]⟩ ![0, 1, 2, 3, 4] hb3 (broadcastInDim ⟨5, ![1, 1, 1, 3, 16]⟩ ![3, 4] hb2
      (shapeCast ⟨2, ![3, 16]⟩ (extractStridedSlice ⟨4, ![1, 1, 3, 16]⟩ ![i.val, j.val, 0, 0] x1 hs) hc)) (ix5 n h w c f)
      = x1 (ix4 i j c f) := by
  rw [broadcastInDim_apply _ hb3 _ (ix5 n h w c f) (ix5 (0 : Fin 1) (0 : Fin 1) (0 : Fin 1) c f) (fun a => by fin_cases a <;> rfl),
    broadcastInDim_apply _ hb2 _ (ix5 (0 : Fin 1) (0 : Fin 1) (0 : Fin 1) c f) (ix2 c f) (fun a => by fin_cases a <;> rfl),
    shapeCast_apply _ hc (ix2 c f) (ix4 (0 : Fin 1) (0 : Fin 1) c f) (by
      rw [Shape.rowMajor_val_four, Shape.rowMajor_val_two]
      show ((0 * 1 + 0) * 3 + c.val) * 16 + f.val = c.val * 16 + f.val
      omega)]
  exact extractStridedSlice_apply _ x1 hs (ix4 (0 : Fin 1) (0 : Fin 1) c f) (ix4 i j c f) (fun a => match a with
    | ⟨0, _⟩ => by show i.val = i.val + 0; omega
    | ⟨1, _⟩ => by show j.val = j.val + 0; omega
    | ⟨2, _⟩ => by show c.val = 0 + c.val; omega
    | ⟨3, _⟩ => by show f.val = 0 + f.val; omega)

/-- A host minimum-reduce over the channel axis (axis 3 of 16 × 126 × 126 × 3 × 16) of a difference, started from +∞'s
    word, read at `(n, h, w, f)`: the fold of `min` from the greatest element over the three channel entries. -/
theorem reduceMin_channels (A B : (⟨5, ![16, 126, 126, 3, 16]⟩ : Shape).Idx → Ideal .f32)
    (hred : (⟨5, ![16, 126, 126, 3, 16]⟩ : Shape).ReducesTo [3] ⟨4, ![16, 126, 126, 16]⟩)
    (hu : 0 < (⟨0, ![]⟩ : Shape).numel) (n : Fin 16) (h w : Fin 126) (f : Fin 16) (d : Fin 3 → Ideal .f32)
    (hd : ∀ c : Fin 3, A (ix5 n h w c f) - B (ix5 n h w c f) = d c) :
    Host.reduce FloatOps.minimumf (subf A B) (constant (F := Ideal) ⟨0, ![]⟩ .f32 0x7F800000#32) hred hu (ix4 n h w f)
      = (Finset.univ : Finset (Fin 3)).fold min ⊤ d := by
  have hR : (⟨5, ![16, 126, 126, 3, 16]⟩ : Shape).Reduces [3] ⟨4, ![16, 126, 126, 16]⟩ := by decide
  rw [Host.reduce_eq_fold_single FloatOps.minimumf _ _ hred hR hu]
  have hl : ∀ c : Fin 3, hR.lift (ix4 n h w f) c = ix5 n h w c f := fun c => by
    funext a; apply Fin.ext; fin_cases a <;> rfl
  have hf : (subf A B ∘ hR.lift (ix4 n h w f)) = d := funext fun c => by
    show A (hR.lift (ix4 n h w f) c) - B (hR.lift (ix4 n h w f) c) = d c
    rw [hl c]; exact hd c
  rw [hf]
  show (Finset.univ : Finset (Fin 3)).fold min (Ideal.ofBits .f32 0x7F800000#32) d = _
  rw [posInf]

/-- A host maximum-reduce over the filter axis (axis 3 of 16 × 126 × 126 × 16), started from −∞'s word, read at
    `(n, h, w)`: the fold of `max` from that word's value over the sixteen filter entries. -/
theorem reduceMax_filters (E : (⟨4, ![16, 126, 126, 16]⟩ : Shape).Idx → Ideal .f32)
    (hred : (⟨4, ![16, 126, 126, 16]⟩ : Shape).ReducesTo [3] ⟨3, ![16, 126, 126]⟩)
    (hu : 0 < (⟨0, ![]⟩ : Shape).numel) (n : Fin 16) (h w : Fin 126) (e : Fin 16 → Ideal .f32)
    (he : ∀ f : Fin 16, E (ix4 n h w f) = e f) :
    Host.reduce FloatOps.maximumf E (constant (F := Ideal) ⟨0, ![]⟩ .f32 0xFF800000#32) hred hu (ix3 n h w)
      = (Finset.univ : Finset (Fin 16)).fold max (Ideal.ofBits .f32 0xFF800000#32) e := by
  have hR : (⟨4, ![16, 126, 126, 16]⟩ : Shape).Reduces [3] ⟨3, ![16, 126, 126]⟩ := by decide
  rw [Host.reduce_eq_fold_single FloatOps.maximumf _ _ hred hR hu]
  have hl : ∀ f : Fin 16, hR.lift (ix3 n h w) f = ix4 n h w f := fun f => by
    funext a; apply Fin.ext; fin_cases a <;> rfl
  have hf : (E ∘ hR.lift (ix3 n h w)) = e := funext fun f => by
    show E (hR.lift (ix3 n h w) f) = e f
    rw [hl f]; exact he f
  rw [hf]
  rfl

end Erosion

end
-- ==== Proof.RefTaps.lean ====
import proofs.«122516_j62861141344687_2_alg».proof.Proof.Gen.ReferenceIdeal.Read
import proofs.«122516_j62861141344687_2_alg».proof.Proof.HostReaders

/-!
# What the reference computes, index by index

The reference's result at `(n, h, w, 0)` is the maximum over the filters of the minimum over the nine tap pairs
`(i, j)` of the minimum over the channels of pixel less element: the specification's `result`, with the 27 taps
grouped pair by pair (`MinTaps.running_eq_nested`).
-/

noncomputable section

open Idealize.ShloMosaic Idealize.ShloMosaic.ValueIdx

namespace Cert.ReferenceIdeal.Erode

open Cert.ReferenceIdeal Cert.ReferenceIdeal.Gen Cert.ReferenceIdeal.Read Erosion

/-! ## The channel minimum under each tap pair -/

theorem pair_0_0 (x0 : Img) (x1 : Elems) (n : Fin 16) (h w : Fin 126) (f : Fin 16) :
    val_main_v8 (F := Ideal) x0 x1 (ix4 n h w f) = MinTaps.overC (tap x0 x1 n h w f) 0 0 := by
  unfold val_main_v8 val_main_v7 val_main_v5 val_main_v6 val_main_v1 val_main_v0 val_main_v4 val_main_v3 val_main_v2 val_main_cst
  exact reduceMin_channels _ _ reducesTo_S16x126x126x3x16_S16x126x126x16_d3 h_S_ n h w f _ (fun c =>
    congr (congrArg HSub.hSub
      (imgUnder_apply x0 0 0 slices_S16x128x128x3_S16x126x126x3_0_0_0_0 bcast_S16x126x126x3_S16x126x126x3x1_0_1_2_3
        bcast_S16x126x126x3x1_S16x126x126x3x16_0_1_2_3_4 n h w c f))
      (elemsUnder_apply x1 0 0 slices_S3x3x3x16_S1x1x3x16_0_0_0_0 shapeCasts_S1x1x3x16_S3x16 bcast_S3x16_S1x1x1x3x16_3_4
        bcast_S1x1x1x3x16_S16x126x126x3x16_0_1_2_3_4 n h w c f))

theorem pair_0_1 (x0 : Img) (x1 : Elems) (n : Fin 16) (h w : Fin 126) (f : Fin 16) :
    val_main_v17 (F := Ideal) x0 x1 (ix4 n h w f) = MinTaps.overC (tap x0 x1 n h w f) 0 1 := by
  unfold val_main_v17 val_main_v16 val_main_v14 val_main_v15 val_main_v10 val_main_v9 val_main_v13 val_main_v12 val_main_v11 val_main_cst_0
  exact reduceMin_channels _ _ reducesTo_S16x126x126x3x16_S16x126x126x16_d3 h_S_ n h w f _ (fun c =>
    congr (congrArg HSub.hSub
      (imgUnder_apply x0 0 1 slices_S16x128x128x3_S16x126x126x3_0_0_1_0 bcast_S16x126x126x3_S16x126x126x3x1_0_1_2_3
        bcast_S16x126x126x3x1_S16x126x126x3x16_0_1_2_3_4 n h w c f))
      (elemsUnder_apply x1 0 1 slices_S3x3x3x16_S1x1x3x16_0_1_0_0 shapeCasts_S1x1x3x16_S3x16 bcast_S3x16_S1x1x1x3x16_3_4
        bcast_S1x1x1x3x16_S16x126x126x3x16_0_1_2_3_4 n h w c f))

theorem pair_0_2 (x0 : Img) (x1 : Elems) (n : Fin 16) (h w : Fin 126) (f : Fin 16) :
    val_main_v27 (F := Ideal) x0 x1 (ix4 n h w f) = MinTaps.overC (tap x0 x1 n h w f) 0 2 := by
  unfold val_main_v27 val_main_v26 val_main_v24 val_main_v25 val_main_v20 val_main_v19 val_main_v23 val_main_v22 val_main_v21 val_main_cst_1
  exact reduceMin_channels _ _ reducesTo_S16x126x126x3x16_S16x126x126x16_d3 h_S_ n h w f _ (fun c =>
    congr (congrArg HSub.hSub
      (imgUnder_apply x0 0 2 slices_S16x128x128x3_S16x126x126x3_0_0_2_0 bcast_S16x126x126x3_S16x126x126x3x1_0_1_2_3
        bcast_S16x126x126x3x1_S16x126x126x3x16_0_1_2_3_4 n h w c f))
      (elemsUnder_apply x1 0 2 slices_S3x3x3x16_S1x1x3x16_0_2_0_0 shapeCasts_S1x1x3x16_S3x16 bcast_S3x16_S1x1x1x3x16_3_4
        bcast_S1x1x1x3x16_S16x126x126x3x16_0_1_2_3_4 n h w c f))

theorem pair_1_0 (x0 : Img) (x1 : Elems) (n : Fin 16) (h w : Fin 126) (f : Fin 16) :
    val_main_v37 (F := Ideal) x0 x1 (ix4 n h w f) = MinTaps.overC (tap x0 x1 n h w f) 1 0 := by
  unfold val_main_v37 val_main_v36 val_main_v34 val_main_v35 val_main_v30 val_main_v29 val_main_v33 val_main_v32 val_main_v31 val_main_cst_2
  exact reduceMin_channels _ _ reducesTo_S16x126x126x3x16_S16x126x126x16_d3 h_S_ n h w f _ (fun c =>
    congr (congrArg HSub.hSub
      (imgUnder_apply x0 1 0 slices_S16x128x128x3_S16x126x126x3_0_1_0_0 bcast_S16x126x126x3_S16x126x126x3x1_0_1_2_3
        bcast_S16x126x126x3x1_S16x126x126x3x16_0_1_2_3_4 n h w c f))
      (elemsUnder_apply x1 1 0 slices_S3x3x3x16_S1x1x3x16_1_0_0_0 shapeCasts_S1x1x3x16_S3x16 bcast_S3x16_S1x1x1x3x16_3_4
        bcast_S1x1x1x3x16_S16x126x126x3x16_0_1_2_3_4 n h w c f))

theorem pair_1_1 (x0 : Img) (x1 : Elems) (n : Fin 16) (h w : Fin 126) (f : Fin 16) :
    val_main_v47 (F := Ideal) x0 x1 (ix4 n h w f) = MinTaps.overC (tap x0 x1 n h w f) 1 1 := by
  unfold val_main_v47 val_main_v46 val_main_v44 val_main_v45 val_main_v40 val_main_v39 val_main_v43 val_main_v42 val_main_v41 val_main_cst_3
  exact reduceMin_channels _ _ reducesTo_S16x126x126x3x16_S16x126x126x16_d3 h_S_ n h w f _ (fun c =>
    congr (congrArg HSub.hSub
      (imgUnder_apply x0 1 1 slices_S16x128x128x3_S16x126x126x3_0_1_1_0 bcast_S16x126x126x3_S16x126x126x3x1_0_1_2_3
        bcast_S16x126x126x3x1_S16x126x126x3x16_0_1_2_3_4 n h w c f))
      (elemsUnder_apply x1 1 1 slices_S3x3x3x16_S1x1x3x16_1_1_0_0 shapeCasts_S1x1x3x16_S3x16 bcast_S3x16_S1x1x1x3x16_3_4
        bcast_S1x1x1x3x16_S16x126x126x3x16_0_1_2_3_4 n h w c f))

theorem pair_1_2 (x0 : Img) (x1 : Elems) (n : Fin 16) (h w : Fin 126) (f : Fin 16) :
    val_main_v57 (F := Ideal) x0 x1 (ix4 n h w f) = MinTaps.overC (tap x0 x1 n h w f) 1 2 := by
  unfold val_main_v57 val_main_v56 val_main_v54 val_main_v55 val_main_v50 val_main_v49 val_main_v53 val_main_v52 val_main_v51 val_main_cst_4
  exact reduceMin_channels _ _ reducesTo_S16x126x126x3x16_S16x126x126x16_d3 h_S_ n h w f _ (fun c =>
    congr (congrArg HSub.hSub
      (imgUnder_apply x0 1 2 slices_S16x128x128x3_S16x126x126x3_0_1_2_0 bcast_S16x126x126x3_S16x126x126x3x1_0_1_2_3
        bcast_S16x126x126x3x1_S16x126x126x3x16_0_1_2_3_4 n h w c f))
      (elemsUnder_apply x1 1 2 slices_S3x3x3x16_S1x1x3x16_1_2_0_0 shapeCasts_S1x1x3x16_S3x16 bcast_S3x16_S1x1x1x3x16_3_4
        bcast_S1x1x1x3x16_S16x126x126x3x16_0_1_2_3_4 n h w c f))

theorem pair_2_0 (x0 : Img) (x1 : Elems) (n : Fin 16) (h w : Fin 126) (f : Fin 16) :
    val_main_v67 (F := Ideal) x0 x1 (ix4 n h w f) = MinTaps.overC (tap x0 x1 n h w f) 2 0 := by
  unfold val_main_v67 val_main_v66 val_main_v64 val_main_v65 val_main_v60 val_main_v59 val_main_v63 val_main_v62 val_main_v61 val_main_cst_5
  exact reduceMin_channels _ _ reducesTo_S16x126x126x3x16_S16x126x126x16_d3 h_S_ n h w f _ (fun c =>
    congr (congrArg HSub.hSub
      (imgUnder_apply x0 2 0 slices_S16x128x128x3_S16x126x126x3_0_2_0_0 bcast_S16x126x126x3_S16x126x126x3x1_0_1_2_3
        bcast_S16x126x126x3x1_S16x126x126x3x16_0_1_2_3_4 n h w c f))
      (elemsUnder_apply x1 2 0 slices_S3x3x3x16_S1x1x3x16_2_0_0_0 shapeCasts_S1x1x3x16_S3x16 bcast_S3x16_S1x1x1x3x16_3_4
        bcast_S1x1x1x3x16_S16x126x126x3x16_0_1_2_3_4 n h w c f))

theorem pair_2_1 (x0 : Img) (x1 : Elems) (n : Fin 16) (h w : Fin 126) (f : Fin 16) :
    val_main_v77 (F := Ideal) x0 x1 (ix4 n h w f) = MinTaps.overC (tap x0 x1 n h w f) 2 1 := by
  unfold val_main_v77 val_main_v76 val_main_v74 val_main_v75 val_main_v70 val_main_v69 val_main_v73 val_main_v72 val_main_v71 val_main_cst_6
  exact reduceMin_channels _ _ reducesTo_S16x126x126x3x16_S16x126x126x16_d3 h_S_ n h w f _ (fun c =>
    congr (congrArg HSub.hSub
      (imgUnder_apply x0 2 1 slices_S16x128x128x3_S16x126x126x3_0_2_1_0 bcast_S16x126x126x3_S16x126x126x3x1_0_1_2_3
        bcast_S16x126x126x3x1_S16x126x126x3x16_0_1_2_3_4 n h w c f))
      (elemsUnder_apply x1 2 1 slices_S3x3x3x16_S1x1x3x16_2_1_0_0 shapeCasts_S1x1x3x16_S3x16 bcast_S3x16_S1x1x1x3x16_3_4
        bcast_S1x1x1x3x16_S16x126x126x3x16_0_1_2_3_4 n h w c f))

theorem pair_2_2 (x0 : Img) (x1 : Elems) (n : Fin 16) (h w : Fin 126) (f : Fin 16) :
    val_main_v87 (F := Ideal) x0 x1 (ix4 n h w f) = MinTaps.overC (tap x0 x1 n h w f) 2 2 := by
  unfold val_main_v87 val_main_v86 val_main_v84 val_main_v85 val_main_v80 val_main_v79 val_main_v83 val_main_v82 val_main_v81 val_main_cst_7
  exact reduceMin_channels _ _ reducesTo_S16x126x126x3x16_S16x126x126x16_d3 h_S_ n h w f _ (fun c =>
    congr (congrArg HSub.hSub
      (imgUnder_apply x0 2 2 slices_S16x128x128x3_S16x126x126x3_0_2_2_0 bcast_S16x126x126x3_S16x126x126x3x1_0_1_2_3
        bcast_S16x126x126x3x1_S16x126x126x3x16_0_1_2_3_4 n h w c f))
      (elemsUnder_apply x1 2 2 slices_S3x3x3x16_S1x1x3x16_2_2_0_0 shapeCasts_S1x1x3x16_S3x16 bcast_S3x16_S1x1x1x3x16_3_4
        bcast_S1x1x1x3x16_S16x126x126x3x16_0_1_2_3_4 n h w c f))

/-! ## The nine combined, the maximum over the filters, the trailing unit axis -/

/-- The running minimum of the nine per-pair minima is the erosion by filter `f`. -/
theorem eroded_apply (x0 : Img) (x1 : Elems) (n : Fin 16) (h w : Fin 126) (f : Fin 16) :
    val_main_v88 (F := Ideal) x0 x1 (ix4 n h w f) = eroded x0 x1 n h w f := by
  unfold eroded
  rw [MinTaps.running_eq_nested]
  unfold MinTaps.nested
  rw [val_main_v88_apply, val_main_v78_apply, val_main_v68_apply, val_main_v58_apply, val_main_v48_apply, val_main_v38_apply, val_main_v28_apply, val_main_v18_apply]
  rw [pair_0_0, pair_0_1, pair_0_2, pair_1_0, pair_1_1, pair_1_2, pair_2_0, pair_2_1, pair_2_2]
  rfl

/-- The maximum over the filter axis. -/
theorem peak_apply (x0 : Img) (x1 : Elems) (n : Fin 16) (h w : Fin 126) :
    val_main_v89 (F := Ideal) x0 x1 (ix3 n h w) = peak x0 x1 n h w := by
  unfold val_main_v89 val_main_cst_8
  exact reduceMax_filters _ reducesTo_S16x126x126x16_S16x126x126_d3 h_S_ n h w (eroded x0 x1 n h w)
    (eroded_apply x0 x1 n h w)

/-- The reference's result is the specification's. -/
theorem result_eq (x0 : Img) (x1 : Elems) : val_main_v90 (F := Ideal) x0 x1 = result x0 x1 := by
  funext q
  obtain ⟨n, h, w, u, rfl⟩ : ∃ (n : Fin 16) (h w : Fin 126) (u : Fin 1), q = ix4 n h w u := ⟨q 0, q 1, q 2, q 3, eq_ix4 q⟩
  rw [val_main_v90_apply]
  have e : idx_main_v90 (ix4 n h w u) = ix3 n h w := funext fun a => match a with
    | ⟨0, _⟩ => rfl
    | ⟨1, _⟩ => rfl
    | ⟨2, _⟩ => rfl
  rw [e, peak_apply]
  rfl

end Cert.ReferenceIdeal.Erode

end
-- ==== Proof.lean ====
/-
  Grey-scale erosion by sixteen 3 × 3 × 3 structuring elements followed by a maximum over the elements:
  for an image batch x[n, y, z, c] (16 × 128 × 128 × 3) and elements s[i, j, c, f] (3 × 3 × 3 × 16),

      out[n, h, w, 0] = max over f of ( min over (i, j, c) of  x[n, h + i, w + j, c] − s[i, j, c, f] ).

  The kernel works on one image per grid point, held as planes (rows × channels × columns): it sweeps the 27 taps
  in lexicographic order, keeping ONE running minimum in a 16 × 126 × 126 scratch, and stores the maximum of the
  scratch over its filter axis; the host transposes the batch before the call and appends a unit axis after it.
  The reference takes, for each of the nine tap pairs (i, j), the minimum over the channels started from +∞,
  combines the nine in a running minimum, and reduces the filter axis by a maximum from −∞.

  Over the extended reals both are the specification's `Erosion.result` (Proof/Erosion.lean): the same differences
  enter both minima, `min` is associative with +∞ as identity (Proof/LibMinTaps.lean), and the two maxima are the
  same fold from the same word. No law used needs finite values, so the precondition is never opened.

    Proof/KernelReaders.lean, Proof/KernelBlock.lean, Proof/KernelValue.lean — the kernel: its vector operations at
      an index, the output block of one grid point, the array the call leaves and the program's result;
    Proof/HostReaders.lean, Proof/RefTaps.lean — the reference: its host operations at an index, its result.
-/
import proofs.«122516_j62861141344687_2_alg».proof.Defs
import proofs.«122516_j62861141344687_2_alg».proof.Proof.Gen.Kernel
import proofs.«122516_j62861141344687_2_alg».proof.Proof.Gen.Kernel.Frame
import proofs.«122516_j62861141344687_2_alg».proof.Proof.Gen.KernelIdeal
import proofs.«122516_j62861141344687_2_alg».proof.Proof.Gen.KernelIdeal.Frame
import proofs.«122516_j62861141344687_2_alg».proof.Proof.Gen.ReferenceIdeal
import proofs.«122516_j62861141344687_2_alg».proof.Proof.Gen.ReferenceIdeal.Run
import proofs.«122516_j62861141344687_2_alg».proof.Proof.Gen.ReferenceIdeal.Read
import proofs.«122516_j62861141344687_2_alg».proof.Proof.Gen.Pre_finite_inputs
import proofs.«122516_j62861141344687_2_alg».proof.Proof.KernelValue
import proofs.«122516_j62861141344687_2_alg».proof.Proof.RefTaps
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The kernel over the extended reals is the printed kernel's own text: nothing was rewritten. -/
theorem preserves : Cert.preserves_Kernel_KernelIdeal := trivial

/-- From memories agreeing on the image batch and the elements, both programs end with the specification's result. -/
theorem algebraic : Cert.algebraic_KernelIdeal_ReferenceIdeal := by
  intro m ρ m' ρ' _ hagree
  refine ⟨fun c => Erosion.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Erode.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, Cert.ReferenceIdeal.Erode.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
